-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)) →
    ∃ (v0 : (c : Dev Cert.KernelIdeal.nD) → Buf (Elt Ideal) ((c.tc : Thread Cert.KernelIdeal.nD Cert.KernelIdeal.τ).loc Cert.KernelIdeal.main_v3)) (v1 : (c : Dev Cert.KernelIdeal.nD) → Buf (Elt Ideal) ((c.tc : Thread Cert.KernelIdeal.nD Cert.KernelIdeal.τ).loc Cert.KernelIdeal.main_v4)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v3) = v0 c
          ∧ r.2.mem ((c.tc : Thread Cert.KernelIdeal.nD Cert.KernelIdeal.τ).loc Cert.KernelIdeal.main_v4) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v4) = v0 c
          ∧ r.2.mem ((c.tc : Thread Cert.ReferenceIdeal.nD Cert.ReferenceIdeal.τ).loc Cert.ReferenceIdeal.main_v9) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S20000x1024 : Shape := ⟨2, ![20000, 1024]⟩
abbrev S81x1024 : Shape := ⟨2, ![81, 1024]⟩
abbrev S81 : Shape := ⟨1, ![81]⟩
abbrev S320x1024 : Shape := ⟨2, ![320, 1024]⟩
abbrev S320 : Shape := ⟨1, ![320]⟩
abbrev S_ : Shape := ⟨0, ![]⟩

class Facts : Prop where
  bcast_S_S20000x1024 : S_.BroadcastsInDim S20000x1024 (![] : Fin 0 → Fin S20000x1024.rank)
  reducesTo_S20000x1024_S_d0_1 : S20000x1024.ReducesTo [0, 1] S_
  h_S_ : 0 < S_.numel
  bcast_S_S81x1024 : S_.BroadcastsInDim S81x1024 (![] : Fin 0 → Fin S81x1024.rank)
  reducesTo_S81x1024_S_d0_1 : S81x1024.ReducesTo [0, 1] S_
  bcast_S_S81 : S_.BroadcastsInDim S81 (![] : Fin 0 → Fin S81.rank)
  reducesTo_S81_S_d0 : S81.ReducesTo [0] S_
  bcast_S_S320x1024 : S_.BroadcastsInDim S320x1024 (![] : Fin 0 → Fin S320x1024.rank)
  reducesTo_S320x1024_S_d0_1 : S320x1024.ReducesTo [0, 1] S_
  bcast_S_S320 : S_.BroadcastsInDim S320 (![] : Fin 0 → Fin S320.rank)
  reducesTo_S320_S_d0 : S320.ReducesTo [0] S_

variable [Facts]

def fn_part1 {F : FTy → Type} [FloatOps F] (main_arg4 : FVec F S320 .f32) (main_v13 : IVec S_ 1) (main_v16 : IVec S320x1024 1) : IVec S_ 1 :=
  let main_c_5 : IVec S_ 1 := constantI S_ 1 1#1
  let main_v17 : IVec S_ 1 := (fun x v => Host.reduce IntOp.andi x v reducesTo_S320x1024_S_d0_1 h_S_) main_v16 main_c_5
  let main_v18 : IVec S_ 1 := andi main_v13 main_v17
  let main_v19 : FVec F S320 .f32 := Host.absf main_arg4
  let main_cst_6 : FVec F S_ .f32 := constant S_ .f32 0x7F800000#32
  let main_v20 : FVec F S320 .f32 := broadcastInDim S320 ![] bcast_S_S320 main_cst_6
  let main_v21 : IVec S320 1 := cmpf .olt main_v19 main_v20
  let main_c_7 : IVec S_ 1 := constantI S_ 1 1#1
  let main_v22 : IVec S_ 1 := (fun x v => Host.reduce IntOp.andi x v reducesTo_S320_S_d0 h_S_) main_v21 main_c_7
  let main_v23 : IVec S_ 1 := andi main_v18 main_v22
  main_v23

def fn {F : FTy → Type} [FloatOps F] (main_arg0 : FVec F S20000x1024 .f32) (main_arg1 : FVec F S81x1024 .f32) (main_arg2 : FVec F S81 .f32) (main_arg3 : FVec F S320x1024 .f32) (main_arg4 : FVec F S320 .f32) : IVec S_ 1 :=
  let main_v0 : FVec F S20000x1024 .f32 := Host.absf main_arg0
  let main_cst : FVec F S_ .f32 := constant S_ .f32 0x7F800000#32
  let main_v1 : FVec F S20000x1024 .f32 := broadcastInDim S20000x1024 ![] bcast_S_S20000x1024 main_cst
  let main_v2 : IVec S20000x1024 1 := cmpf .olt main_v0 main_v1
  let main_c : IVec S_ 1 := constantI S_ 1 1#1
  let main_v3 : IVec S_ 1 := (fun x v => Host.reduce IntOp.andi x v reducesTo_S20000x1024_S_d0_1 h_S_) main_v2 main_c
  let main_v4 : FVec F S81x1024 .f32 := Host.absf main_arg1
  let main_cst_0 : FVec F S_ .f32 := constant S_ .f32 0x7F800000#32
  let main_v5 : FVec F S81x1024 .f32 := broadcastInDim S81x1024 ![] bcast_S_S81x1024 main_cst_0
  let main_v6 : IVec S81x1024 1 := cmpf .olt main_v4 main_v5
  let main_c_1 : IVec S_ 1 := constantI S_ 1 1#1
  let main_v7 : IVec S_ 1 := (fun x v => Host.reduce IntOp.andi x v reducesTo_S81x1024_S_d0_1 h_S_) main_v6 main_c_1
  let main_v8 : IVec S_ 1 := andi main_v3 main_v7
  let main_v9 : FVec F S81 .f32 := Host.absf main_arg2
  let main_cst_2 : FVec F S_ .f32 := constant S_ .f32 0x7F800000#32
  let main_v10 : FVec F S81 .f32 := broadcastInDim S81 ![] bcast_S_S81 main_cst_2
  let main_v11 : IVec S81 1 := cmpf .olt main_v9 main_v10
  let main_c_3 : IVec S_ 1 := constantI S_ 1 1#1
  let main_v12 : IVec S_ 1 := (fun x v => Host.reduce IntOp.andi x v reducesTo_S81_S_d0 h_S_) main_v11 main_c_3
  let main_v13 : IVec S_ 1 := andi main_v8 main_v12
  let main_v14 : FVec F S320x1024 .f32 := Host.absf main_arg3
  let main_cst_4 : FVec F S_ .f32 := constant S_ .f32 0x7F800000#32
  let main_v15 : FVec F S320x1024 .f32 := broadcastInDim S320x1024 ![] bcast_S_S320x1024 main_cst_4
  let main_v16 : IVec S320x1024 1 := cmpf .olt main_v14 main_v15
  fn_part1 (F := F) main_arg4 main_v13 main_v16
-- ==== Kernel.lean ====
abbrev S20000x1024 : Shape := ⟨2, ![20000, 1024]⟩
abbrev S81x1024 : Shape := ⟨2, ![81, 1024]⟩
abbrev S81 : Shape := ⟨1, ![81]⟩
abbrev S320x1024 : Shape := ⟨2, ![320, 1024]⟩
abbrev S320 : Shape := ⟨1, ![320]⟩
abbrev S81x1 : Shape := ⟨2, ![81, 1]⟩
abbrev S320x1 : Shape := ⟨2, ![320, 1]⟩
abbrev S81x20000 : Shape := ⟨2, ![81, 20000]⟩
abbrev S320x20000 : Shape := ⟨2, ![320, 20000]⟩
abbrev S2048x1024 : Shape := ⟨2, ![2048, 1024]⟩
abbrev S81x2048 : Shape := ⟨2, ![81, 2048]⟩
abbrev S320x2048 : Shape := ⟨2, ![320, 2048]⟩
abbrev S20000x81 : Shape := ⟨2, ![20000, 81]⟩
abbrev S20000x320 : Shape := ⟨2, ![20000, 320]⟩

abbrev nBuf : Space → Nat
  | .hbm => 11
  | .vmem => 10
  | .smem => 0
  | _ => 0

abbrev bufTy : (tb : Table) → Fin (tcTables nBuf tb) → BufTy
  | .hbm, ⟨0, _⟩ => ⟨S20000x1024, .f32⟩
  | .hbm, ⟨1, _⟩ => ⟨S81x1024, .f32⟩
  | .hbm, ⟨2, _⟩ => ⟨S81, .f32⟩
  | .hbm, ⟨3, _⟩ => ⟨S320x1024, .f32⟩
  | .hbm, ⟨4, _⟩ => ⟨S320, .f32⟩
  | .hbm, ⟨5, _⟩ => ⟨S81x1, .f32⟩
  | .hbm, ⟨6, _⟩ => ⟨S320x1, .f32⟩
  | .hbm, ⟨7, _⟩ => ⟨S81x20000, .f32⟩
  | .hbm, ⟨8, _⟩ => ⟨S320x20000, .f32⟩
  | .hbm, ⟨9, _⟩ => ⟨S20000x81, .f32⟩
  | .hbm, ⟨10, _⟩ => ⟨S20000x320, .f32⟩
  | .local _ .vmem, ⟨0, _⟩ => ⟨S2048x1024, .f32⟩
  | .local _ .vmem, ⟨1, _⟩ => ⟨S2048x1024, .f32⟩
  | .local _ .vmem, ⟨2, _⟩ => ⟨S81x1024, .f32⟩
  | .local _ .vmem, ⟨3, _⟩ => ⟨S81x1, .f32⟩
  | .local _ .vmem, ⟨4, _⟩ => ⟨S320x1024, .f32⟩
  | .local _ .vmem, ⟨5, _⟩ => ⟨S320x1, .f32⟩
  | .local _ .vmem, ⟨6, _⟩ => ⟨S81x2048, .f32⟩
  | .local _ .vmem, ⟨7, _⟩ => ⟨S81x2048, .f32⟩
  | .local _ .vmem, ⟨8, _⟩ => ⟨S320x2048, .f32⟩
  | .local _ .vmem, ⟨9, _⟩ => ⟨S320x2048, .f32⟩
  | _, _ => ⟨S20000x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2_0 : Ref sig .tc := ⟨.hbm, 7, rfl⟩
abbrev main_v2_1 : Ref sig .tc := ⟨.hbm, 8, rfl⟩
abbrev main_v3 : Ref sig .tc := ⟨.hbm, 9, rfl⟩
abbrev main_v4 : Ref sig .tc := ⟨.hbm, 10, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg5_1 : Ref sig .tc := ⟨.vmem, 7, rfl⟩
abbrev cc0_stg6_0 : Ref sig .tc := ⟨.vmem, 8, rfl⟩
abbrev cc0_stg6_1 : Ref sig .tc := ⟨.vmem, 9, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem5_1 : DmaSem sig := 7
abbrev cc0_sem6_0 : DmaSem sig := 8
abbrev cc0_sem6_1 : DmaSem sig := 9

abbrev nD : Nat := 1
abbrev τ : Topo := Topo.v7x

variable {F : FTy → Type} [FloatOps F]

abbrev grid0 : Pipeline.Grid := ⟨1, ![10], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_6 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

abbrev stage0_0 : Fin 2 → Memref sig .tc .vmem S2048x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S81x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S81x1 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S320x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S320x1 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S81x2048 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S320x2048 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

class Facts₀ : Prop where
  shapeCasts_S81_S81x1 : S81.ShapeCasts S81x1
  shapeCasts_S320_S320x1 : S320.ShapeCasts S320x1
  inb_S2048x1024_S2048x1024_0_0 : ∀ a, (![0, 0] : Fin 2 → Nat) a + S2048x1024.size a ≤ S2048x1024.size a
  h_S2048x1024 : 0 < S2048x1024.numel
  inb_S81x1024_S81x1024_0_0 : ∀ a, (![0, 0] : Fin 2 → Nat) a + S81x1024.size a ≤ S81x1024.size a
  h_S81x1024 : 0 < S81x1024.numel
  inb_S81x1_S81x1_0_0 : ∀ a, (![0, 0] : Fin 2 → Nat) a + S81x1.size a ≤ S81x1.size a
  h_S81x1 : 0 < S81x1.numel
  shapeCasts_S81x1_S81x1 : S81x1.ShapeCasts S81x1
  broadcasts_S81x1_S81x2048 : S81x1.Broadcasts S81x2048
  inb_S81x2048_S81x2048_0_0 : ∀ a, (![0, 0] : Fin 2 → Nat) a + S81x2048.size a ≤ S81x2048.size a
  h_S81x2048 : 0 < S81x2048.numel
  inb_S320x1024_S320x1024_0_0 : ∀ a, (![0, 0] : Fin 2 → Nat) a + S320x1024.size a ≤ S320x1024.size a
  h_S320x1024 : 0 < S320x1024.numel
  inb_S320x1_S320x1_0_0 : ∀ a, (![0, 0] : Fin 2 → Nat) a + S320x1.size a ≤ S320x1.size a
  h_S320x1 : 0 < S320x1.numel
  shapeCasts_S320x1_S320x1 : S320x1.ShapeCasts S320x1
  broadcasts_S320x1_S320x2048 : S320x1.Broadcasts S320x2048
  inb_S320x2048_S320x2048_0_0 : ∀ a, (![0, 0] : Fin 2 → Nat) a + S320x2048.size a ≤ S320x2048.size a
  h_S320x2048 : 0 < S320x2048.numel
  transposes_S81x20000_S20000x81_1_0 : S81x20000.Transposes [1, 0] S20000x81
  transposes_S320x20000_S20000x320_1_0 : S320x20000.Transposes [1, 0] S20000x320
  dot_S81x1024_S2048x1024_S81x2048_1_1_0_0_n_n_wf : DotDims.WF S81x1024 S2048x1024 S81x2048 [1] [1] [0] [0] [] []
  dot_S320x1024_S2048x1024_S320x2048_1_1_0_0_n_n_wf : DotDims.WF S320x1024 S2048x1024 S320x2048 [1] [1] [0] [0] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hstart0_0 : ∀ (i : grid0.Coords) a, cc0_transform_0 i a * S2048x1024.size a < S20000x1024.size a
  hwx0_0 : ∀ i : grid0.Coords, EltTy.bits .f32 = 32 ∨ (Rect.unit (s := S20000x1024) (fun a => cc0_transform_0 i a * S2048x1024.size a) (fun a => (Pipeline.Clip.of (cc0_transform_0 i a) (S2048x1024.size a) (S20000x1024.size a)).extent (S2048x1024.size a)) fun a => Pipeline.Clip.inb (Pipeline.Clip.ok_of (hstart0_0 i a))).WholeWords (EltTy.packing .f32)
  hwxs0_0 : ∀ i : grid0.Coords, EltTy.bits .f32 = 32 ∨ (Rect.unit (s := S2048x1024) (fun _ => 0) (fun a => (Pipeline.Clip.of (cc0_transform_0 i a) (S2048x1024.size a) (S20000x1024.size a)).extent (S2048x1024.size a)) fun a => (Nat.zero_add _).trans_le (Pipeline.Clip.extent_le (Pipeline.Clip.ok_of (hstart0_0 i a)))).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S81x1024.size a ≤ S81x1024.size a
  hwx0_1 : ∀ i : grid0.Coords, EltTy.bits .f32 = 32 ∨ (Rect.block (s := S81x1024) S81x1024.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S81x1.size a ≤ S81x1.size a
  hwx0_2 : ∀ i : grid0.Coords, EltTy.bits .f32 = 32 ∨ (Rect.block (s := S81x1) S81x1.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S320x1024.size a ≤ S320x1024.size a
  hwx0_3 : ∀ i : grid0.Coords, EltTy.bits .f32 = 32 ∨ (Rect.block (s := S320x1024) S320x1024.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S320x1.size a ≤ S320x1.size a
  hwx0_4 : ∀ i : grid0.Coords, EltTy.bits .f32 = 32 ∨ (Rect.block (s := S320x1) S320x1.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hstart0_5 : ∀ (i : grid0.Coords) a, cc0_transform_5 i a * S81x2048.size a < S81x20000.size a
  hwx0_5 : ∀ i : grid0.Coords, EltTy.bits .f32 = 32 ∨ (Rect.unit (s := S81x20000) (fun a => cc0_transform_5 i a * S81x2048.size a) (fun a => (Pipeline.Clip.of (cc0_transform_5 i a) (S81x2048.size a) (S81x20000.size a)).extent (S81x2048.size a)) fun a => Pipeline.Clip.inb (Pipeline.Clip.ok_of (hstart0_5 i a))).WholeWords (EltTy.packing .f32)
  hwxs0_5 : ∀ i : grid0.Coords, EltTy.bits .f32 = 32 ∨ (Rect.unit (s := S81x2048) (fun _ => 0) (fun a => (Pipeline.Clip.of (cc0_transform_5 i a) (S81x2048.size a) (S81x20000.size a)).extent (S81x2048.size a)) fun a => (Nat.zero_add _).trans_le (Pipeline.Clip.extent_le (Pipeline.Clip.ok_of (hstart0_5 i a)))).WholeWords (EltTy.packing .f32)
  hstage0_6 : ∀ j, (stage0_6 j).IsWhole
  nbuf0_6 : grid0.bufCount reads0_6 false = 2
  hreads0_6 : ∀ i i' : grid0.Coords, (∀ a, reads0_6 a = true → i a = i' a) → cc0_transform_6 i = cc0_transform_6 i'
  hstart0_6 : ∀ (i : grid0.Coords) a, cc0_transform_6 i a * S320x2048.size a < S320x20000.size a
  hwx0_6 : ∀ i : grid0.Coords, EltTy.bits .f32 = 32 ∨ (Rect.unit (s := S320x20000) (fun a => cc0_transform_6 i a * S320x2048.size a) (fun a => (Pipeline.Clip.of (cc0_transform_6 i a) (S320x2048.size a) (S320x20000.size a)).extent (S320x2048.size a)) fun a => Pipeline.Clip.inb (Pipeline.Clip.ok_of (hstart0_6 i a))).WholeWords (EltTy.packing .f32)
  hwxs0_6 : ∀ i : grid0.Coords, EltTy.bits .f32 = 32 ∨ (Rect.unit (s := S320x2048) (fun _ => 0) (fun a => (Pipeline.Clip.of (cc0_transform_6 i a) (S320x2048.size a) (S320x20000.size a)).extent (S320x2048.size a)) fun a => (Nat.zero_add _).trans_le (Pipeline.Clip.extent_le (Pipeline.Clip.ok_of (hstart0_6 i a)))).WholeWords (EltTy.packing .f32)

variable [Facts₀]

def dot_S81x1024_S2048x1024_S81x2048_1_1_0_0_n_n : DotDims S81x1024 S2048x1024 S81x2048 where
  lhsContracting := [1]
  rhsContracting := [1]
  lhsNonContracting := [0]
  rhsNonContracting := [0]
  lhsBatch := []
  rhsBatch := []
  wf := dot_S81x1024_S2048x1024_S81x2048_1_1_0_0_n_n_wf
def dot_S320x1024_S2048x1024_S320x2048_1_1_0_0_n_n : DotDims S320x1024 S2048x1024 S320x2048 where
  lhsContracting := [1]
  rhsContracting := [1]
  lhsNonContracting := [0]
  rhsNonContracting := [0]
  lhsBatch := []
  rhsBatch := []
  wf := dot_S320x1024_S2048x1024_S320x2048_1_1_0_0_n_n_wf

abbrev win0_0 : Pipeline.Window sig grid0 :=
  Pipeline.Window.ofSpecClip (Memref.whole main_arg0) S2048x1024.size cc0_transform_0 reads0_0 false false 2 stage0_0 sem0_0
    hrank0 hreads0_0 hstart0_0 nbuf0_0 (Memref.isWhole_whole _) hwx0_0 hwxs0_0 hstage0_0

abbrev win0_1 : Pipeline.Window sig grid0 :=
  Pipeline.Window.ofSpec (Memref.whole main_arg1) S81x1024.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v0) S81x1.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_arg3) S320x1024.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v1) S320x1.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpecClip (Memref.whole main_v2_0) S81x2048.size cc0_transform_5 reads0_5 true false 2 stage0_5 sem0_5
    hrank0 hreads0_5 hstart0_5 nbuf0_5 (Memref.isWhole_whole _) hwx0_5 hwxs0_5 hstage0_5

abbrev win0_6 : Pipeline.Window sig grid0 :=
  Pipeline.Window.ofSpecClip (Memref.whole main_v2_1) S320x2048.size cc0_transform_6 reads0_6 true false 2 stage0_6 sem0_6
    hrank0 hreads0_6 hstart0_6 nbuf0_6 (Memref.isWhole_whole _) hwx0_6 hwxs0_6 hstage0_6

abbrev win0 : Fin 7 → Pipeline.Window sig grid0 := fun | 0 => win0_0 | 1 => win0_1 | 2 => win0_2 | 3 => win0_3 | 4 => win0_4 | 5 => win0_5 | 6 => win0_6 | ⟨_ + 7, h⟩ => absurd h (Nat.not_lt.2 (Nat.le_add_left _ _))
abbrev spec0 : Fin 7 → Pipeline.WinSpec sig grid0.rank := fun w => (win0 w).toWinSpec

class Facts : Prop extends Facts₀ where

variable [Facts]
-- ==== ReferenceIdeal.lean ====
abbrev S20000x1024 : Shape := ⟨2, ![20000, 1024]⟩
abbrev S81x1024 : Shape := ⟨2, ![81, 1024]⟩
abbrev S81 : Shape := ⟨1, ![81]⟩
abbrev S320x1024 : Shape := ⟨2, ![320, 1024]⟩
abbrev S320 : Shape := ⟨1, ![320]⟩
abbrev S1024x81 : Shape := ⟨2, ![1024, 81]⟩
abbrev S20000x81 : Shape := ⟨2, ![20000, 81]⟩
abbrev S1x81 : Shape := ⟨2, ![1, 81]⟩
abbrev S1024x320 : Shape := ⟨2, ![1024, 320]⟩
abbrev S20000x320 : Shape := ⟨2, ![20000, 320]⟩
abbrev S1x320 : Shape := ⟨2, ![1, 320]⟩

abbrev nBuf : Space → Nat
  | .hbm => 15
  | .vmem => 0
  | .smem => 0
  | _ => 0

abbrev bufTy : (tb : Table) → Fin (tcTables nBuf tb) → BufTy
  | .hbm, ⟨0, _⟩ => ⟨S20000x1024, .f32⟩
  | .hbm, ⟨1, _⟩ => ⟨S81x1024, .f32⟩
  | .hbm, ⟨2, _⟩ => ⟨S81, .f32⟩
  | .hbm, ⟨3, _⟩ => ⟨S320x1024, .f32⟩
  | .hbm, ⟨4, _⟩ => ⟨S320, .f32⟩
  | .hbm, ⟨5, _⟩ => ⟨S1024x81, .f32⟩
  | .hbm, ⟨6, _⟩ => ⟨S20000x81, .f32⟩
  | .hbm, ⟨7, _⟩ => ⟨S1x81, .f32⟩
  | .hbm, ⟨8, _⟩ => ⟨S20000x81, .f32⟩
  | .hbm, ⟨9, _⟩ => ⟨S20000x81, .f32⟩
  | .hbm, ⟨10, _⟩ => ⟨S1024x320, .f32⟩
  | .hbm, ⟨11, _⟩ => ⟨S20000x320, .f32⟩
  | .hbm, ⟨12, _⟩ => ⟨S1x320, .f32⟩
  | .hbm, ⟨13, _⟩ => ⟨S20000x320, .f32⟩
  | .hbm, ⟨14, _⟩ => ⟨S20000x320, .f32⟩
  | _, _ => ⟨S20000x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩

abbrev nD : Nat := 1
abbrev τ : Topo := Topo.v7x

variable {F : FTy → Type} [FloatOps F]

class Facts₀ : Prop where
  transposes_S81x1024_S1024x81_1_0 : S81x1024.Transposes [1, 0] S1024x81
  bcast_S81_S1x81_1 : S81.BroadcastsInDim S1x81 (![1] : Fin 1 → Fin S1x81.rank)
  bcast_S1x81_S20000x81_0_1 : S1x81.BroadcastsInDim S20000x81 (![0, 1] : Fin 2 → Fin S20000x81.rank)
  transposes_S320x1024_S1024x320_1_0 : S320x1024.Transposes [1, 0] S1024x320
  bcast_S320_S1x320_1 : S320.BroadcastsInDim S1x320 (![1] : Fin 1 → Fin S1x320.rank)
  bcast_S1x320_S20000x320_0_1 : S1x320.BroadcastsInDim S20000x320 (![0, 1] : Fin 2 → Fin S20000x320.rank)
  dot_S20000x1024_S1024x81_S20000x81_1_0_0_1_n_n_wf : DotDims.WF S20000x1024 S1024x81 S20000x81 [1] [0] [0] [1] [] []
  dot_S20000x1024_S1024x320_S20000x320_1_0_0_1_n_n_wf : DotDims.WF S20000x1024 S1024x320 S20000x320 [1] [0] [0] [1] [] []

variable [Facts₀]

def dot_S20000x1024_S1024x81_S20000x81_1_0_0_1_n_n : DotDims S20000x1024 S1024x81 S20000x81 where
  lhsContracting := [1]
  rhsContracting := [0]
  lhsNonContracting := [0]
  rhsNonContracting := [1]
  lhsBatch := []
  rhsBatch := []
  wf := dot_S20000x1024_S1024x81_S20000x81_1_0_0_1_n_n_wf
def dot_S20000x1024_S1024x320_S20000x320_1_0_0_1_n_n : DotDims S20000x1024 S1024x320 S20000x320 where
  lhsContracting := [1]
  rhsContracting := [0]
  lhsNonContracting := [0]
  rhsNonContracting := [1]
  lhsBatch := []
  rhsBatch := []
  wf := dot_S20000x1024_S1024x320_S20000x320_1_0_0_1_n_n_wf

class Facts : Prop extends Facts₀ where

variable [Facts]
-- ==== Proof.BitsStep.lean ====
/-
  One grid point of the fused two-head kernel, as a Hoare triple, at any float instance.

  The body reads five staging buffers whole — a block of activations `x` of 2048 rows by 1024, the two weight
  matrices (81 and 320 rows by 1024) and the two biases laid out as columns — and overwrites the two result
  buffers whole: buffer 5 with `W_c · xᵀ + b_c` (81 by 2048) and buffer 6 with `W_b · xᵀ + b_b` (320 by 2048),
  the bias column copied along the 2048 columns. The triple says exactly that: the five inputs are handed back
  unchanged, and each result buffer, whatever it held, ends holding its one store's value as a function of the
  inputs (`headC`, `headB`). Nothing here depends on what a float is.
-/
import proofs.«104777_g27419071218216_cont_9to1_1760_8_alg».proof.Proof.Gen.Kernel.Skeleton
import proofs.«104777_g27419071218216_cont_9to1_1760_8_alg».proof.Proof.Gen.Kernel.Frame
import Idealize.ShloMosaic.Lib.Pipeline.FrameBody
import Idealize.ShloMosaic.Lib.Tactic

set_option maxRecDepth 16384

noncomputable section

namespace Cert.Kernel.Step

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! ## The whole-buffer rectangles the body reads and writes through -/

abbrev rX : Rect S2048x1024 := Rect.unit (s := S2048x1024) ![0, 0] S2048x1024.size Facts₀.inb_S2048x1024_S2048x1024_0_0
abbrev rWc : Rect S81x1024 := Rect.unit (s := S81x1024) ![0, 0] S81x1024.size Facts₀.inb_S81x1024_S81x1024_0_0
abbrev rBc : Rect S81x1 := Rect.unit (s := S81x1) ![0, 0] S81x1.size Facts₀.inb_S81x1_S81x1_0_0
abbrev rWb : Rect S320x1024 := Rect.unit (s := S320x1024) ![0, 0] S320x1024.size Facts₀.inb_S320x1024_S320x1024_0_0
abbrev rBb : Rect S320x1 := Rect.unit (s := S320x1) ![0, 0] S320x1.size Facts₀.inb_S320x1_S320x1_0_0
abbrev rOc : Rect S81x2048 := Rect.unit (s := S81x2048) ![0, 0] S81x2048.size Facts₀.inb_S81x2048_S81x2048_0_0
abbrev rOb : Rect S320x2048 := Rect.unit (s := S320x2048) ![0, 0] S320x2048.size Facts₀.inb_S320x2048_S320x2048_0_0

/-! ## What the body leaves in each result buffer -/

/-- The class-score head's buffer after the body: its one whole-buffer store, `W_c · xᵀ + b_c` of what was loaded. -/
def headC (x : Vec F S2048x1024 .f32) (wc : Vec F S81x1024 .f32) (bc : Vec F S81x1 .f32) : Vec F S81x2048 .f32 :=
  View.canon [⟨rOc, k0_pay1 (View.ld x rX) (View.ld wc rWc) (View.ld bc rBc)⟩]

/-- The box-delta head's buffer after the body: its one whole-buffer store, `W_b · xᵀ + b_b` of what was loaded. -/
def headB (x : Vec F S2048x1024 .f32) (wb : Vec F S320x1024 .f32) (bb : Vec F S320x1 .f32) : Vec F S320x2048 .f32 :=
  View.canon [⟨rOb, k0_pay2 (View.ld x rX) (View.ld wb rWb) (View.ld bb rBb)⟩]

/-- The one store of each result covers its buffer. -/
theorem coverC (p : Vec F S81x2048 .f32) (y : S81x2048.Idx) :
    ∃ pc ∈ ([⟨rOc, p⟩] : List (View.Piece (Elt F) S81x2048 .f32)), y ∈ pc.1.set :=
  View.cover_of_tiled [⟨rOc, p⟩] S81x2048.size (by rfl) y
theorem coverB (p : Vec F S320x2048 .f32) (y : S320x2048.Idx) :
    ∃ pc ∈ ([⟨rOb, p⟩] : List (View.Piece (Elt F) S320x2048 .f32)), y ∈ pc.1.set :=
  View.cover_of_tiled [⟨rOb, p⟩] S320x2048.size (by rfl) y

/-! ## The triple -/

set_option maxHeartbeats 1000000 in
/-- The body on whole staging buffers: the five inputs at contents `x wc bc wb bb`, the two results at anything,
    runs to the continuation with the inputs as they were and the results at `headC x wc bc` and `headB x wb bb`. -/
theorem sound_kernel (c : Dev nD) (E : Set ℕ) (i : grid0.Coords)
    (arg1 : Memref sig .tc .vmem S2048x1024 .f32) (harg1 : arg1.IsWhole) (arg2 : Memref sig .tc .vmem S81x1024 .f32) (harg2 : arg2.IsWhole)
    (arg3 : Memref sig .tc .vmem S81x1 .f32) (harg3 : arg3.IsWhole) (arg4 : Memref sig .tc .vmem S320x1024 .f32) (harg4 : arg4.IsWhole)
    (arg5 : Memref sig .tc .vmem S320x1 .f32) (harg5 : arg5.IsWhole) (arg6 : Memref sig .tc .vmem S81x2048 .f32) (harg6 : arg6.IsWhole)
    (arg7 : Memref sig .tc .vmem S320x2048 .f32) (harg7 : arg7.IsWhole)
    (x : Vec F S2048x1024 .f32) (wc : Vec F S81x1024 .f32) (bc : Vec F S81x1 .f32) (wb : Vec F S320x1024 .f32) (bb : Vec F S320x1 .f32)
    (K : PUnit → sProp 𝕄) :
    iprop(owns (c : Thread nD τ) arg1 fullShare x ∗ owns (c : Thread nD τ) arg2 fullShare wc ∗ owns (c : Thread nD τ) arg3 fullShare bc
        ∗ owns (c : Thread nD τ) arg4 fullShare wb ∗ owns (c : Thread nD τ) arg5 fullShare bb
        ∗ (∃ d, owns (c : Thread nD τ) arg6 fullShare d) ∗ (∃ d, owns (c : Thread nD τ) arg7 fullShare d)
        ∗ (iprop(owns (c : Thread nD τ) arg1 fullShare x ∗ owns (c : Thread nD τ) arg2 fullShare wc ∗ owns (c : Thread nD τ) arg3 fullShare bc
            ∗ owns (c : Thread nD τ) arg4 fullShare wb ∗ owns (c : Thread nD τ) arg5 fullShare bb
            ∗ owns (c : Thread nD τ) arg6 fullShare (headC x wc bc) ∗ owns (c : Thread nD τ) arg7 fullShare (headB x wb bb)) -∗ K ⟨⟩))
      ⊢ wp frame (wpE (defs₀ (F := F)) Variants.none c none) E
          (cc0__fused_heads_t i arg1 harg1 arg2 harg2 arg3 harg3 arg4 harg4 arg5 harg5 arg6 harg6 arg7 harg7) K := by
  simp only [cc0__fused_heads_t_eq_skeleton]; unfold cc0__fused_heads_t_skel
  unfold owns
  iintro ⟨⟨%f1, %hf1, H1⟩, ⟨%f2, %hf2, H2⟩, ⟨%f3, %hf3, H3⟩, ⟨%f4, %hf4, H4⟩, ⟨%f5, %hf5, H5⟩, ⟨%d6, %f6, -, H6⟩, ⟨%d7, %f7, -, H7⟩, Hk⟩
  subst hf1 hf2 hf3 hf4 hf5
  sl_exec
  sl_step
  iapply Hk
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists _; isplitr
    swap; · iexact H6
    ipureintro
    exact View.read_writes_eq_canon _ _ _ (coverC _)
  iexists _; isplitr
  swap; · iexact H7
  ipureintro
  exact View.read_writes_eq_canon _ _ _ (coverB _)

end Cert.Kernel.Step

end
-- ==== Proof.BitsRun.lean ====
/-
  The frame of the kernel as printed: it runs to the end, faults nowhere, and leaves its arguments as they were.

  The last of the ten activation blocks overhangs the array, so 480 rows of its staging buffer hold words nothing
  names, and the matrix unit's product, read word for word, is not stated row by row: what the body leaves in the
  480 trailing columns of the result buffers — and, at the word level, in any column — is not a function this
  proof could name. It does not need to: the frame says nothing of the results. So the two result windows are
  FORGOTTEN (handed to the body at any contents, taken back at any contents), and the five input windows are handed
  back as they were found: the activations' block on the fetched rows, the weights and the biases whole. The
  library's pipeline rule for such data gives the run; the argument arrays are then read off its post — three are
  staged by the call and never written, two are only read by the lines before the call.
-/
import proofs.«104777_g27419071218216_cont_9to1_1760_8_alg».proof.Proof.BitsStep
import proofs.«104777_g27419071218216_cont_9to1_1760_8_alg».proof.Proof.Gen.Kernel.Points
import Idealize.ShloMosaic.Lib.Pipeline.FrameBody
import Idealize.ShloMosaic.Lib.Pipeline.FrameSuffix
import Idealize.ShloMosaic.Lib.Tactic

set_option maxRecDepth 16384

noncomputable section

namespace Cert.Kernel.Run

open Cert.Kernel Cert.Kernel.Gen Cert.Kernel.Step
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The proof data -/

/-- The two result windows: nothing is said of what the body leaves in them. -/
def forgets : Fin 7 → Bool := fun w => w.val == 5 || w.val == 6

/-- After the body at point `t`: the activation buffer holds its block on the fetched rows (a fixed word elsewhere:
    nothing reads the choice), the weights' and biases' buffers their arrays; the results are not named. -/
def dats (_ : Fin 1) (c : Dev nD) : Dat τ (Elt F) Unit ℕ (UR sig nD τ) ℕ cfg0 c where
  A w := V m c (Pipeline.arrRef spec0 w)
  after w t := match w with
    | ⟨0, _⟩ => win0_0.fill (grid0.coords t) (fun _ => Scalar.ofBits .f32 0#32) (iblk m c 0 t)
    | ⟨1, _⟩ => iblk m c 1 t
    | ⟨2, _⟩ => iblk m c 2 t
    | ⟨3, _⟩ => iblk m c 3 t
    | ⟨4, _⟩ => iblk m c 4 t
    | ⟨5, h⟩ => Pipeline.Dat.unnamed (cfg := cfg0) ⟨5, h⟩ t
    | ⟨6, h⟩ => Pipeline.Dat.unnamed (cfg := cfg0) ⟨6, h⟩ t
  Φ _ := Pipeline.ΦA spec0 c
  q _ := fullShare
  owed _ := 0

theorem A_eq (c : Dev nD) (w : Fin cfg0.W) : (dats m 0 c).A w = V m c (Pipeline.arrRef spec0 w) := by
  dsimp only [dats]

theorem after0_0 (c : Dev nD) (t : Fin cfg0.N) :
    (dats m 0 c).after 0 t = win0_0.fill (grid0.coords t) (fun _ => Scalar.ofBits .f32 0#32) (iblk m c 0 t) := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = iblk m c 3 t := by dsimp only [dats]
theorem after0_4 (c : Dev nD) (t : Fin cfg0.N) : (dats m 0 c).after 4 t = iblk m c 4 t := by dsimp only [dats]

/-! ## What the body finds in each input buffer -/

theorem before0_0 (c : Dev nD) (t : Fin cfg0.N) (d) :
    (dats m 0 c).before 0 t d = win0_0.fill (grid0.coords t) d (iblk m c 0 t) := by
  rw [(dats m 0 c).before_fetched 0 t (fetch0_0 t) d]
  unfold Dat.fetched Dat.blockOf iblk
  rw [A_eq]
theorem before0_1 (c : Dev nD) (t : Fin cfg0.N) (d) : (dats m 0 c).before 1 t d = iblk m c 1 t :=
  before0_1_of m (dats m 0 c) (A_eq m c 1) (after0_1 m c) t d
theorem before0_2 (c : Dev nD) (t : Fin cfg0.N) (d) : (dats m 0 c).before 2 t d = iblk m c 2 t :=
  before0_2_of m (dats m 0 c) (A_eq m c 2) (after0_2 m c) t d
theorem before0_3 (c : Dev nD) (t : Fin cfg0.N) (d) : (dats m 0 c).before 3 t d = iblk m c 3 t :=
  before0_3_of m (dats m 0 c) (A_eq m c 3) (after0_3 m c) t d
theorem before0_4 (c : Dev nD) (t : Fin cfg0.N) (d) : (dats m 0 c).before 4 t d = iblk m c 4 t :=
  before0_4_of m (dats m 0 c) (A_eq m c 4) (after0_4 m c) t d

/-! ## The body at a point -/

/-- What the body is called with at point `t`: each input buffer at what it finds there, each result buffer at
    anything; -/
def bodyPre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d))
    ∗ (∃ d, owns (c : Thread nD τ) (st0_3 t) fullShare ((dats m 0 c).before 3 t d))
    ∗ (∃ d, owns (c : Thread nD τ) (st0_4 t) fullShare ((dats m 0 c).before 4 t d))
    ∗ (∃ X, owns (c : Thread nD τ) (st0_5 t) fullShare X)
    ∗ (∃ X, owns (c : Thread nD τ) (st0_6 t) fullShare X))

/-- and what it returns: the activation buffer stated on its fetched rows, the other inputs whole, the results at
    anything. -/
def bodyPost (c : Dev nD) (t : Fin cfg0.N) : sProp 𝕄 :=
  iprop((dats m 0 c).Φ t.succ ∗ (dats m 0 c).owesAt () t.succ
    ∗ (∃ d, owns (c : Thread nD τ) (st0_0 t) fullShare (win0_0.fill (grid0.coords t) d (win0_0.cut (grid0.coords t) ((dats m 0 c).after 0 t))))
    ∗ owns (c : Thread nD τ) (st0_1 t) fullShare ((dats m 0 c).after 1 t)
    ∗ owns (c : Thread nD τ) (st0_2 t) fullShare ((dats m 0 c).after 2 t)
    ∗ owns (c : Thread nD τ) (st0_3 t) fullShare ((dats m 0 c).after 3 t)
    ∗ owns (c : Thread nD τ) (st0_4 t) fullShare ((dats m 0 c).after 4 t)
    ∗ (∃ X, owns (c : Thread nD τ) (st0_5 t) fullShare X)
    ∗ (∃ X, owns (c : Thread nD τ) (st0_6 t) fullShare X))

theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1, before0_2, before0_3, before0_4]
  rw [show (dats m 0 c).Φ t.succ = (dats m 0 c).Φ t.castSucc from rfl,
    show (dats m 0 c).owesAt () t.succ = (dats m 0 c).owesAt () t.castSucc from rfl,
    after0_0, after0_1, after0_2, after0_3, after0_4]
  iintro ⟨HΦ, Ho, ⟨%d0, H0⟩, ⟨%d1, H1⟩, ⟨%d2, H2⟩, ⟨%d3, H3⟩, ⟨%d4, H4⟩, ⟨%d5, H5⟩, ⟨%d6, H6⟩⟩
  iapply (sound_kernel c Set.univ (grid0.coords t) _ _ _ _ _ _ _ _ _ _ _ _ _ _
    (win0_0.fill (grid0.coords t) d0 (iblk m c 0 t)) (iblk m c 1 t) (iblk m c 2 t) (iblk m c 3 t) (iblk m c 4 t) _)
  isplitl [H0]; · iexact H0
  isplitl [H1]; · iexact H1
  isplitl [H2]; · iexact H2
  isplitl [H3]; · iexact H3
  isplitl [H4]; · iexact H4
  isplitl [H5]; · iexists _; iexact H5
  isplitl [H6]; · iexists _; iexact H6
  iintro ⟨H0, H1, H2, H3, H4, H5, H6⟩
  isplitl [HΦ]; · iexact HΦ
  isplitl [Ho]; · iexact Ho
  isplitl [H0]
  · iexists d0; rw [Window.cut_fill]; iexact H0
  isplitl [H1]; · iexact H1
  isplitl [H2]; · iexact H2
  isplitl [H3]; · iexact H3
  isplitl [H4]; · iexact H4
  isplitl [H5]; · iexists _; iexact H5
  iexists _; iexact H6

/-- The library's body obligation, the two results forgotten. -/
theorem body_obligation (c : Dev nD) :
    BodyObligationLoose (dats (F := F) m 0 c) (defs₀ (F := F)) Variants.none () Set.univ forgets := fun t => by
  rw [bigSep_W0, bigSep_W0]
  exact sound_body m c t

/-! ## The run and the frame -/

/-- The lines after the call write only the two transposed results. -/
def written : Finset (Ref sig .tc) := {main_v3, main_v4}

theorem sfx_written : ∀ ops ∈ ([hostOps1] : List (List (HloOp τ sig (Elt F)))), ∀ op ∈ ops,
    ∀ b : Ref sig .tc, Proc.devRef .tc b ∈ op.writes → b ∈ written := by
  intro ops hops op hop
  simp only [List.mem_cons, List.mem_nil_iff, or_false] at hops
  rcases hops with rfl
  simp only [hostOps1, List.mem_cons, List.mem_nil_iff, or_false] at hop
  rcases hop with rfl | rfl
  all_goals
    intro b hb
    simp only [StableHlo.unary_writes, Finset.mem_singleton] at hb
    have := Proc.devRef_injective _ hb
    subst this
    decide

set_option backward.isDefEq.respectTransparency.types false in
/-- At the compiled mesh, for any values, from any memory with zero counters: every weakly fair execution of @main
    terminates, every input array of the call ends as the call found it, nothing is said of the two results of the
    call nor of the two buffers the later lines write, and every other buffer ends as the call found it. -/
theorem run_main : θ_run defs (onTc (τ := τ) (main (F := F))) (s₀ m ρ)
    (Pipeline.RDat.FramePostR (cfgs 0) (fun c => (dats m 0 c).toRForget forgets) written (V m)) :=
  Pipeline.RDat.θ_run_frame_around_T cfgs (0 : Fin 1) launch0 defs₀ Variants.none (fun c => (dats m 0 c).toRForget forgets) written m ρ main
    (hbody := fun c => (body_obligation m c).toRForget) (hshare := fun c => ((dats m 0 c).toRForget forgets).share_full fun _ => rfl)
    (howed := fun _ _ => rfl) (V₀ := V0 m) (opss := [hostOps1]) (hsub := sfx_sub) (hfresh := sfx_fresh) (hkeep := sfx_keeps)
    (hT := sfx_written) (hmain := hmain m Variants.none) (hA := A_eq m) (hΦ := fun _ _ => rfl)

/-- THE FRAME of the kernel as printed, at any float instance: the five arguments end as they were launched. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)) :=
  (θ_run defs _ _).mono (fun _ h c =>
    ⟨(Eq.mp (congrFun (((dats m 0 c).toRForget forgets).ArrAt_in 0 rfl _) _) ((h c).1 0)).trans ((A_eq m c 0).trans (V_main_arg0 m c)),
     (Eq.mp (congrFun (((dats m 0 c).toRForget forgets).ArrAt_in 1 rfl _) _) ((h c).1 1)).trans ((A_eq m c 1).trans (V_main_arg1 m c)),
     ((h c).2 main_arg2 (Finset.mem_sdiff.mpr ⟨Pipeline.mem_restRefs_of main_arg2 (by decide) (by decide), by decide⟩)).trans (V_main_arg2 m c),
     (Eq.mp (congrFun (((dats m 0 c).toRForget forgets).ArrAt_in 3 rfl _) _) ((h c).1 3)).trans ((A_eq m c 3).trans (V_main_arg3 m c)),
     ((h c).2 main_arg4 (Finset.mem_sdiff.mpr ⟨Pipeline.mem_restRefs_of main_arg4 (by decide) (by decide), by decide⟩)).trans (V_main_arg4 m c)⟩)
    (run_main m ρ)

end Cert.Kernel.Run

end
-- ==== Proof.IdealStep.lean ====
/-
  One grid point of the fused two-head kernel, as a Hoare triple, at any float instance.

  The body reads five staging buffers whole — a block of activations `x` of 2048 rows by 1024, the two weight
  matrices (81 and 320 rows by 1024) and the two biases laid out as columns — and overwrites the two result
  buffers whole: buffer 5 with `W_c · xᵀ + b_c` (81 by 2048) and buffer 6 with `W_b · xᵀ + b_b` (320 by 2048),
  the bias column copied along the 2048 columns. The triple says exactly that: the five inputs are handed back
  unchanged, and each result buffer, whatever it held, ends holding its one store's value as a function of the
  inputs (`headC`, `headB`). Nothing here depends on what a float is.
-/
import proofs.«104777_g27419071218216_cont_9to1_1760_8_alg».proof.Proof.Gen.KernelIdeal.Skeleton
import proofs.«104777_g27419071218216_cont_9to1_1760_8_alg».proof.Proof.Gen.KernelIdeal.Frame
import Idealize.ShloMosaic.Lib.Pipeline.FrameBody
import Idealize.ShloMosaic.Lib.Tactic

set_option maxRecDepth 16384

noncomputable section

namespace Cert.KernelIdeal.Step

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! ## The whole-buffer rectangles the body reads and writes through -/

abbrev rX : Rect S2048x1024 := Rect.unit (s := S2048x1024) ![0, 0] S2048x1024.size Facts₀.inb_S2048x1024_S2048x1024_0_0
abbrev rWc : Rect S81x1024 := Rect.unit (s := S81x1024) ![0, 0] S81x1024.size Facts₀.inb_S81x1024_S81x1024_0_0
abbrev rBc : Rect S81x1 := Rect.unit (s := S81x1) ![0, 0] S81x1.size Facts₀.inb_S81x1_S81x1_0_0
abbrev rWb : Rect S320x1024 := Rect.unit (s := S320x1024) ![0, 0] S320x1024.size Facts₀.inb_S320x1024_S320x1024_0_0
abbrev rBb : Rect S320x1 := Rect.unit (s := S320x1) ![0, 0] S320x1.size Facts₀.inb_S320x1_S320x1_0_0
abbrev rOc : Rect S81x2048 := Rect.unit (s := S81x2048) ![0, 0] S81x2048.size Facts₀.inb_S81x2048_S81x2048_0_0
abbrev rOb : Rect S320x2048 := Rect.unit (s := S320x2048) ![0, 0] S320x2048.size Facts₀.inb_S320x2048_S320x2048_0_0

/-! ## What the body leaves in each result buffer -/

/-- The class-score head's buffer after the body: its one whole-buffer store, `W_c · xᵀ + b_c` of what was loaded. -/
def headC (x : Vec F S2048x1024 .f32) (wc : Vec F S81x1024 .f32) (bc : Vec F S81x1 .f32) : Vec F S81x2048 .f32 :=
  View.canon [⟨rOc, k0_pay1 (View.ld x rX) (View.ld wc rWc) (View.ld bc rBc)⟩]

/-- The box-delta head's buffer after the body: its one whole-buffer store, `W_b · xᵀ + b_b` of what was loaded. -/
def headB (x : Vec F S2048x1024 .f32) (wb : Vec F S320x1024 .f32) (bb : Vec F S320x1 .f32) : Vec F S320x2048 .f32 :=
  View.canon [⟨rOb, k0_pay2 (View.ld x rX) (View.ld wb rWb) (View.ld bb rBb)⟩]

/-- The one store of each result covers its buffer. -/
theorem coverC (p : Vec F S81x2048 .f32) (y : S81x2048.Idx) :
    ∃ pc ∈ ([⟨rOc, p⟩] : List (View.Piece (Elt F) S81x2048 .f32)), y ∈ pc.1.set :=
  View.cover_of_tiled [⟨rOc, p⟩] S81x2048.size (by rfl) y
theorem coverB (p : Vec F S320x2048 .f32) (y : S320x2048.Idx) :
    ∃ pc ∈ ([⟨rOb, p⟩] : List (View.Piece (Elt F) S320x2048 .f32)), y ∈ pc.1.set :=
  View.cover_of_tiled [⟨rOb, p⟩] S320x2048.size (by rfl) y

/-! ## The triple -/

set_option maxHeartbeats 1000000 in
/-- The body on whole staging buffers: the five inputs at contents `x wc bc wb bb`, the two results at anything,
    runs to the continuation with the inputs as they were and the results at `headC x wc bc` and `headB x wb bb`. -/
theorem sound_kernel (c : Dev nD) (E : Set ℕ) (i : grid0.Coords)
    (arg1 : Memref sig .tc .vmem S2048x1024 .f32) (harg1 : arg1.IsWhole) (arg2 : Memref sig .tc .vmem S81x1024 .f32) (harg2 : arg2.IsWhole)
    (arg3 : Memref sig .tc .vmem S81x1 .f32) (harg3 : arg3.IsWhole) (arg4 : Memref sig .tc .vmem S320x1024 .f32) (harg4 : arg4.IsWhole)
    (arg5 : Memref sig .tc .vmem S320x1 .f32) (harg5 : arg5.IsWhole) (arg6 : Memref sig .tc .vmem S81x2048 .f32) (harg6 : arg6.IsWhole)
    (arg7 : Memref sig .tc .vmem S320x2048 .f32) (harg7 : arg7.IsWhole)
    (x : Vec F S2048x1024 .f32) (wc : Vec F S81x1024 .f32) (bc : Vec F S81x1 .f32) (wb : Vec F S320x1024 .f32) (bb : Vec F S320x1 .f32)
    (K : PUnit → sProp 𝕄) :
    iprop(owns (c : Thread nD τ) arg1 fullShare x ∗ owns (c : Thread nD τ) arg2 fullShare wc ∗ owns (c : Thread nD τ) arg3 fullShare bc
        ∗ owns (c : Thread nD τ) arg4 fullShare wb ∗ owns (c : Thread nD τ) arg5 fullShare bb
        ∗ (∃ d, owns (c : Thread nD τ) arg6 fullShare d) ∗ (∃ d, owns (c : Thread nD τ) arg7 fullShare d)
        ∗ (iprop(owns (c : Thread nD τ) arg1 fullShare x ∗ owns (c : Thread nD τ) arg2 fullShare wc ∗ owns (c : Thread nD τ) arg3 fullShare bc
            ∗ owns (c : Thread nD τ) arg4 fullShare wb ∗ owns (c : Thread nD τ) arg5 fullShare bb
            ∗ owns (c : Thread nD τ) arg6 fullShare (headC x wc bc) ∗ owns (c : Thread nD τ) arg7 fullShare (headB x wb bb)) -∗ K ⟨⟩))
      ⊢ wp frame (wpE (defs₀ (F := F)) Variants.none c none) E
          (cc0__fused_heads_t i arg1 harg1 arg2 harg2 arg3 harg3 arg4 harg4 arg5 harg5 arg6 harg6 arg7 harg7) K := by
  simp only [cc0__fused_heads_t_eq_skeleton]; unfold cc0__fused_heads_t_skel
  unfold owns
  iintro ⟨⟨%f1, %hf1, H1⟩, ⟨%f2, %hf2, H2⟩, ⟨%f3, %hf3, H3⟩, ⟨%f4, %hf4, H4⟩, ⟨%f5, %hf5, H5⟩, ⟨%d6, %f6, -, H6⟩, ⟨%d7, %f7, -, H7⟩, Hk⟩
  subst hf1 hf2 hf3 hf4 hf5
  sl_exec
  sl_step
  iapply Hk
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists _; isplitr
    swap; · iexact H6
    ipureintro
    exact View.read_writes_eq_canon _ _ _ (coverC _)
  iexists _; isplitr
  swap; · iexact H7
  ipureintro
  exact View.read_writes_eq_canon _ _ _ (coverB _)

end Cert.KernelIdeal.Step

end
-- ==== Proof.IdealBlock.lean ====
/-
  One stored value of the kernel read at an index, at the extended reals.

  The value the body stores into a result buffer is  matmul(W, X, 0) + bias column copied along the columns,  for a
  weight matrix `W` of [C, 1024] and a block `X` of [2048, 1024] activations. Read at row `c` and column `j` this
  is  Σ_k W[c,k] · X[j,k] + bias[c,0]:  the matrix product into the zero accumulator is the plain sum over the
  contracted axis, the shape cast of a column to itself is the identity, and the copy along the columns reads the
  column's entry of the same row. In particular column `j` of the result depends on row `j` of `X` and on no other
  row — which is why rows of a block that lie past the end of the activations never reach an entry that is written
  back.
-/
import proofs.«104777_g27419071218216_cont_9to1_1760_8_alg».proof.Proof.Gen.KernelIdeal.Skeleton
import Idealize.ShloMosaic.Lib.Pipeline.Value
import Idealize.ShloMosaic.Lib.ValueIdx
import Idealize.ShloMosaic.PureOps.Ideal.Laws

noncomputable section

namespace Cert.KernelIdeal.Block

open Cert.KernelIdeal Cert.KernelIdeal.Gen
open Idealize.ShloMosaic Idealize.ShloMosaic.TcCoe Idealize.SL.Sem Idealize.ShloMosaic.ValueIdx

/-! ## The operand indices of the two matrix products -/

section ClassHead
local notation "D" => dot_S81x1024_S2048x1024_S81x2048_1_1_0_0_n_n

theorem lhsC_0 (i : S81x2048.Idx) (q : (D).contr.Idx) : ((D).lhsIdx i q 0).val = (i 0).val := by
  unfold DotDims.lhsIdx
  rw [dif_neg (show ¬(0 : Fin S81x1024.rank) ∈ (D).lhsBatch by decide), dif_pos (show (0 : Fin S81x1024.rank) ∈ (D).lhsNonContracting by decide)]
  rfl
theorem lhsC_1 (i : S81x2048.Idx) (q : (D).contr.Idx) : ((D).lhsIdx i q 1).val = (q ⟨0, by decide⟩).val :=
  (D).lhsIdx_val_of_single rfl i q
theorem rhsC_0 (i : S81x2048.Idx) (q : (D).contr.Idx) : ((D).rhsIdx i q 0).val = (i 1).val := by
  unfold DotDims.rhsIdx
  rw [dif_neg (show ¬(0 : Fin S2048x1024.rank) ∈ (D).rhsBatch by decide), dif_pos (show (0 : Fin S2048x1024.rank) ∈ (D).rhsNonContracting by decide)]
  rfl
theorem rhsC_1 (i : S81x2048.Idx) (q : (D).contr.Idx) : ((D).rhsIdx i q 1).val = (q ⟨0, by decide⟩).val :=
  (D).rhsIdx_val_of_single rfl i q

/-- The class-score head's stored value at row `c`, column `j`. -/
theorem payC_apply (xb : Vec Ideal S2048x1024 .f32) (wc : Vec Ideal S81x1024 .f32) (bcl : Vec Ideal S81x1 .f32)
    (c : Fin 81) (j : Fin 2048) :
    k0_pay1 (F := Ideal) xb wc bcl (ix2 c j) = (∑ k : Fin 1024, wc (ix2 c k) * xb (ix2 j k)) + bcl (ix2 c 0) := by
  unfold k0_pay1
  refine (ValueIdx.addf_apply _ _ _).trans ?_
  refine congrArg₂ (· + ·) ?_ ?_
  · refine (Ideal.matmul_constant_zero_apply (D) none wc xb (ix2 c j)).trans ?_
    rw [← Equiv.sum_comp (ValueIdx.contrEquiv1 (D) 1024 rfl rfl).symm]
    refine Finset.sum_congr rfl fun k _ => ?_
    have hk := ValueIdx.contrEquiv1_symm_val (D) 1024 rfl rfl k
    have el : (D).lhsIdx (ix2 c j) ((ValueIdx.contrEquiv1 (D) 1024 rfl rfl).symm k) = ix2 c k := funext fun a => Fin.ext (by
      match a with
      | ⟨0, _⟩ => exact lhsC_0 _ _
      | ⟨1, _⟩ => exact (lhsC_1 _ _).trans hk)
    have er : (D).rhsIdx (ix2 c j) ((ValueIdx.contrEquiv1 (D) 1024 rfl rfl).symm k) = ix2 j k := funext fun a => Fin.ext (by
      match a with
      | ⟨0, _⟩ => exact rhsC_0 _ _
      | ⟨1, _⟩ => exact (rhsC_1 _ _).trans hk)
    rw [el, er]
  · refine (broadcastTo_apply _ _ (ix2 c j) (ix2 c 0) (fun a => ?_)).trans ?_
    · match a with
      | ⟨0, _⟩ => show c.val = if (81 : Nat) = 1 then 0 else c.val; rw [if_neg (by decide)]
      | ⟨1, _⟩ => show (0 : Nat) = if (1 : Nat) = 1 then 0 else j.val; rw [if_pos rfl]
    · exact congrFun (shapeCast_self bcl _) _
end ClassHead

section BoxHead
local notation "D" => dot_S320x1024_S2048x1024_S320x2048_1_1_0_0_n_n

theorem lhsB_0 (i : S320x2048.Idx) (q : (D).contr.Idx) : ((D).lhsIdx i q 0).val = (i 0).val := by
  unfold DotDims.lhsIdx
  rw [dif_neg (show ¬(0 : Fin S320x1024.rank) ∈ (D).lhsBatch by decide), dif_pos (show (0 : Fin S320x1024.rank) ∈ (D).lhsNonContracting by decide)]
  rfl
theorem lhsB_1 (i : S320x2048.Idx) (q : (D).contr.Idx) : ((D).lhsIdx i q 1).val = (q ⟨0, by decide⟩).val :=
  (D).lhsIdx_val_of_single rfl i q
theorem rhsB_0 (i : S320x2048.Idx) (q : (D).contr.Idx) : ((D).rhsIdx i q 0).val = (i 1).val := by
  unfold DotDims.rhsIdx
  rw [dif_neg (show ¬(0 : Fin S2048x1024.rank) ∈ (D).rhsBatch by decide), dif_pos (show (0 : Fin S2048x1024.rank) ∈ (D).rhsNonContracting by decide)]
  rfl
theorem rhsB_1 (i : S320x2048.Idx) (q : (D).contr.Idx) : ((D).rhsIdx i q 1).val = (q ⟨0, by decide⟩).val :=
  (D).rhsIdx_val_of_single rfl i q

/-- The box-delta head's stored value at row `c`, column `j`. -/
theorem payB_apply (xb : Vec Ideal S2048x1024 .f32) (wb : Vec Ideal S320x1024 .f32) (bbl : Vec Ideal S320x1 .f32)
    (c : Fin 320) (j : Fin 2048) :
    k0_pay2 (F := Ideal) xb wb bbl (ix2 c j) = (∑ k : Fin 1024, wb (ix2 c k) * xb (ix2 j k)) + bbl (ix2 c 0) := by
  unfold k0_pay2
  refine (ValueIdx.addf_apply _ _ _).trans ?_
  refine congrArg₂ (· + ·) ?_ ?_
  · refine (Ideal.matmul_constant_zero_apply (D) none wb xb (ix2 c j)).trans ?_
    rw [← Equiv.sum_comp (ValueIdx.contrEquiv1 (D) 1024 rfl rfl).symm]
    refine Finset.sum_congr rfl fun k _ => ?_
    have hk := ValueIdx.contrEquiv1_symm_val (D) 1024 rfl rfl k
    have el : (D).lhsIdx (ix2 c j) ((ValueIdx.contrEquiv1 (D) 1024 rfl rfl).symm k) = ix2 c k := funext fun a => Fin.ext (by
      match a with
      | ⟨0, _⟩ => exact lhsB_0 _ _
      | ⟨1, _⟩ => exact (lhsB_1 _ _).trans hk)
    have er : (D).rhsIdx (ix2 c j) ((ValueIdx.contrEquiv1 (D) 1024 rfl rfl).symm k) = ix2 j k := funext fun a => Fin.ext (by
      match a with
      | ⟨0, _⟩ => exact rhsB_0 _ _
      | ⟨1, _⟩ => exact (rhsB_1 _ _).trans hk)
    rw [el, er]
  · refine (broadcastTo_apply _ _ (ix2 c j) (ix2 c 0) (fun a => ?_)).trans ?_
    · match a with
      | ⟨0, _⟩ => show c.val = if (320 : Nat) = 1 then 0 else c.val; rw [if_neg (by decide)]
      | ⟨1, _⟩ => show (0 : Nat) = if (1 : Nat) = 1 then 0 else j.val; rw [if_pos rfl]
    · exact congrFun (shapeCast_self bbl _) _
end BoxHead

end Cert.KernelIdeal.Block

end
-- ==== Proof.SpecHeads.lean ====
/-
  Two linear heads on one activation matrix: the function both programs compute.

  For activations `x` of shape [N, K], weights `w` of shape [C, K] and a bias `b` indexed by the C outputs, entry
  (n, c) of the head is  Σ_k w[c,k] · x[n,k] + b[c]  over the extended reals. The program returns it laid out as
  [N, C] (`head`); the kernel's call produces the transposed layout [C, N] (`headT`), which the lines after the
  call transpose back. Only commutativity of the product is ever used to join two spellings of a term, so nothing
  here needs the inputs to be finite.
-/
import Idealize.ShloMosaic.PureOps.Ideal
import Idealize.ShloMosaic.Lib.ValueIdx

noncomputable section

namespace Cert.Heads

open Idealize.ShloMosaic Idealize.ShloMosaic.ValueIdx

/-- Entry (n, c) of a linear head: row `c` of the weights against row `n` of the activations, plus the bias of `c`. -/
def headAt {N C K : Nat} (x : (⟨2, ![N, K]⟩ : Shape).Idx → EReal) (w : (⟨2, ![C, K]⟩ : Shape).Idx → EReal)
    (b : Fin C → EReal) (n : Fin N) (c : Fin C) : EReal :=
  (∑ k : Fin K, w (ix2 c k) * x (ix2 n k)) + b c

/-- The head as the program returns it, [N, C]. -/
def head {N C K : Nat} (x : (⟨2, ![N, K]⟩ : Shape).Idx → EReal) (w : (⟨2, ![C, K]⟩ : Shape).Idx → EReal)
    (b : Fin C → EReal) : (⟨2, ![N, C]⟩ : Shape).Idx → EReal :=
  fun i => headAt x w b ⟨(i 0).val, (i 0).isLt⟩ ⟨(i 1).val, (i 1).isLt⟩

/-- The head transposed, [C, N]: what the kernel's call writes. -/
def headT {N C K : Nat} (x : (⟨2, ![N, K]⟩ : Shape).Idx → EReal) (w : (⟨2, ![C, K]⟩ : Shape).Idx → EReal)
    (b : Fin C → EReal) : (⟨2, ![C, N]⟩ : Shape).Idx → EReal :=
  fun j => headAt x w b ⟨(j 1).val, (j 1).isLt⟩ ⟨(j 0).val, (j 0).isLt⟩

/-- The two layouts hold the same numbers: entry (n, c) of one is entry (c, n) of the other. -/
theorem head_eq_headT {N C K : Nat} (x : (⟨2, ![N, K]⟩ : Shape).Idx → EReal) (w : (⟨2, ![C, K]⟩ : Shape).Idx → EReal)
    (b : Fin C → EReal) (n : Fin N) (c : Fin C) : head x w b (ix2 n c) = headT x w b (ix2 c n) := rfl

end Cert.Heads

end
-- ==== Proof.IdealRun.lean ====
/-
  The idealized kernel's run, with every array named.

  The call visits ten grid points. At point `t` it fetches rows 2048·t … of the activations into a 2048-row
  staging buffer, and writes the two 2048-column result buffers back onto columns 2048·t … of the two transposed
  results. The activations have 20000 = 9·2048 + 1568 rows, so the last block overhangs the array: only its first
  1568 rows are fetched (the other 480 rows of the buffer hold words nothing names), and only the first 1568
  columns of each result buffer are written back.

  Column `j` of a result buffer is computed from row `j` of the activation buffer alone (a matrix product against
  the weights, plus the bias column). Hence the columns that ARE written back are computed from rows that WERE
  fetched, and what point `t` writes back is exactly block `t` of one function of the whole argument arrays: the
  transposed heads `scoresT` and `deltasT` below. That is what this module proves of the body at every point,
  whatever the unnamed rows hold; the library's pipeline rule then gives the run, and with it the frame.
-/
import proofs.«104777_g27419071218216_cont_9to1_1760_8_alg».proof.Proof.IdealStep
import proofs.«104777_g27419071218216_cont_9to1_1760_8_alg».proof.Proof.IdealBlock
import proofs.«104777_g27419071218216_cont_9to1_1760_8_alg».proof.Proof.SpecHeads
import proofs.«104777_g27419071218216_cont_9to1_1760_8_alg».proof.Proof.Gen.KernelIdeal.Points
import Idealize.ShloMosaic.Lib.Pipeline.FrameBody
import Idealize.ShloMosaic.Lib.Pipeline.FrameSuffix
import Idealize.ShloMosaic.Lib.Pipeline.Value
import Idealize.ShloMosaic.Lib.Tactic

set_option maxRecDepth 16384

noncomputable section

namespace Cert.KernelIdeal.Run

open Cert.KernelIdeal Cert.KernelIdeal.Gen Cert.KernelIdeal.Step Cert.KernelIdeal.Block
open Idealize.ShloMosaic Idealize.ShloMosaic.TcCoe Idealize.ShloMosaic.Tactic Idealize.ShloMosaic.ValueIdx
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

local notation "𝕄" => MT nD τ sig Unit (Elt Ideal) ℕ (UR sig nD τ) ℕ

variable (m : (ℓ : Loc nD τ sig) → Buf (Elt Ideal) ℓ) (ρ : Dev nD → PrngReg)

/-! ## The two results of the call, as functions of the arrays the call finds -/

/-- The class scores, transposed ([81, 20000]): entry (c, n) is row `c` of `W_c` against row `n` of `x`, plus the
    bias column's entry `c`. -/
def scoresT (c : Dev nD) : S81x20000.Idx → EReal :=
  Cert.Heads.headT (V m c main_arg0 : S20000x1024.Idx → EReal) (V m c main_arg1 : S81x1024.Idx → EReal)
    (fun k : Fin 81 => (V m c main_v0 : S81x1.Idx → EReal) (ix2 k 0))

/-- The box deltas, transposed ([320, 20000]). -/
def deltasT (c : Dev nD) : S320x20000.Idx → EReal :=
  Cert.Heads.headT (V m c main_arg0 : S20000x1024.Idx → EReal) (V m c main_arg3 : S320x1024.Idx → EReal)
    (fun k : Fin 320 => (V m c main_v1 : S320x1.Idx → EReal) (ix2 k 0))

/-! ## The proof data -/

/-- After the body at point `t`: the activation buffer holds its block on the rows that were fetched (zero
    elsewhere: nothing reads the choice); the weights' and biases' buffers hold their arrays; each result buffer
    holds, on the columns that are written back, block `t` of the transposed head (zero elsewhere). -/
def dats (_ : Fin 1) (c : Dev nD) : Dat τ (Elt Ideal) Unit ℕ (UR sig nD τ) ℕ cfg0 c where
  A w := V m c (Pipeline.arrRef spec0 w)
  after w t := match w with
    | ⟨0, _⟩ => win0_0.fill (grid0.coords t) (fun _ => (0 : EReal)) (iblk m c 0 t)
    | ⟨1, _⟩ => iblk m c 1 t
    | ⟨2, _⟩ => iblk m c 2 t
    | ⟨3, _⟩ => iblk m c 3 t
    | ⟨4, _⟩ => iblk m c 4 t
    | ⟨5, _⟩ => win0_5.fill (grid0.coords t) (fun _ => (0 : EReal)) ((win0_5.blk t).view.read (Elt Ideal) (scoresT m c))
    | ⟨6, _⟩ => win0_6.fill (grid0.coords t) (fun _ => (0 : EReal)) ((win0_6.blk t).view.read (Elt Ideal) (deltasT m c))
  Φ _ := Pipeline.ΦA spec0 c
  q _ := fullShare
  owed _ := 0

theorem A_eq (c : Dev nD) (w : Fin cfg0.W) : (dats m 0 c).A w = V m c (Pipeline.arrRef spec0 w) := by
  dsimp only [dats]

theorem after0_0 (c : Dev nD) (t : Fin cfg0.N) :
    (dats m 0 c).after 0 t = win0_0.fill (grid0.coords t) (fun _ => (0 : EReal)) (iblk m c 0 t) := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = iblk m c 3 t := by dsimp only [dats]
theorem after0_4 (c : Dev nD) (t : Fin cfg0.N) : (dats m 0 c).after 4 t = iblk m c 4 t := by dsimp only [dats]
theorem after0_5 (c : Dev nD) (t : Fin cfg0.N) :
    (dats m 0 c).after 5 t = win0_5.fill (grid0.coords t) (fun _ => (0 : EReal)) ((win0_5.blk t).view.read (Elt Ideal) (scoresT m c)) := by
  dsimp only [dats]
theorem after0_6 (c : Dev nD) (t : Fin cfg0.N) :
    (dats m 0 c).after 6 t = win0_6.fill (grid0.coords t) (fun _ => (0 : EReal)) ((win0_6.blk t).view.read (Elt Ideal) (deltasT m c)) := by
  dsimp only [dats]

/-! ## What the body finds in each buffer -/

/-- The activation buffer, fetched at every point: its block on the fetched rows, anything (`d`) on the others. -/
theorem before0_0 (c : Dev nD) (t : Fin cfg0.N) (d) :
    (dats m 0 c).before 0 t d = win0_0.fill (grid0.coords t) d (iblk m c 0 t) := by
  rw [(dats m 0 c).before_fetched 0 t (fetch0_0 t) d]
  unfold Dat.fetched Dat.blockOf iblk
  rw [A_eq]

theorem before0_1 (c : Dev nD) (t : Fin cfg0.N) (d) : (dats m 0 c).before 1 t d = iblk m c 1 t :=
  before0_1_of m (dats m 0 c) (A_eq m c 1) (after0_1 m c) t d
theorem before0_2 (c : Dev nD) (t : Fin cfg0.N) (d) : (dats m 0 c).before 2 t d = iblk m c 2 t :=
  before0_2_of m (dats m 0 c) (A_eq m c 2) (after0_2 m c) t d
theorem before0_3 (c : Dev nD) (t : Fin cfg0.N) (d) : (dats m 0 c).before 3 t d = iblk m c 3 t :=
  before0_3_of m (dats m 0 c) (A_eq m c 3) (after0_3 m c) t d
theorem before0_4 (c : Dev nD) (t : Fin cfg0.N) (d) : (dats m 0 c).before 4 t d = iblk m c 4 t :=
  before0_4_of m (dats m 0 c) (A_eq m c 4) (after0_4 m c) t d

/-- A result buffer is written back at every point, so the body finds it at contents nothing names. -/
theorem before0_5 (c : Dev nD) (t : Fin cfg0.N) (d) : (dats m 0 c).before 5 t d = d :=
  (dats m 0 c).before_out_reset 5 rfl t (by
    by_cases h0 : t.val = 0
    · exact .inl h0
    · exact .inr ⟨h0, flush0_5 _⟩) d
theorem before0_6 (c : Dev nD) (t : Fin cfg0.N) (d) : (dats m 0 c).before 6 t d = d :=
  (dats m 0 c).before_out_reset 6 rfl t (by
    by_cases h0 : t.val = 0
    · exact .inl h0
    · exact .inr ⟨h0, flush0_6 _⟩) d

/-! ## Where the blocks sit -/

/-- Point `t`'s activation block starts at row 2048·t, column 0; the weights' and biases' blocks are their whole
    arrays; point `t`'s result blocks start at row 0, column 2048·t. Decided once over the ten points. -/
theorem index0 : ∀ t : Fin cfg0.N, win0_0.index t (0 : Fin 2) = t.val ∧ win0_0.index t (1 : Fin 2) = 0 :=
  (by decide +kernel : ∀ t : Fin grid0.N, win0_0.index t (0 : Fin 2) = t.val ∧ win0_0.index t (1 : Fin 2) = 0)
theorem index1 : ∀ t : Fin cfg0.N, win0_1.index t (0 : Fin 2) = 0 ∧ win0_1.index t (1 : Fin 2) = 0 :=
  (by decide +kernel : ∀ t : Fin grid0.N, win0_1.index t (0 : Fin 2) = 0 ∧ win0_1.index t (1 : Fin 2) = 0)
theorem index2 : ∀ t : Fin cfg0.N, win0_2.index t (0 : Fin 2) = 0 ∧ win0_2.index t (1 : Fin 2) = 0 :=
  (by decide +kernel : ∀ t : Fin grid0.N, win0_2.index t (0 : Fin 2) = 0 ∧ win0_2.index t (1 : Fin 2) = 0)
theorem index3 : ∀ t : Fin cfg0.N, win0_3.index t (0 : Fin 2) = 0 ∧ win0_3.index t (1 : Fin 2) = 0 :=
  (by decide +kernel : ∀ t : Fin grid0.N, win0_3.index t (0 : Fin 2) = 0 ∧ win0_3.index t (1 : Fin 2) = 0)
theorem index4 : ∀ t : Fin cfg0.N, win0_4.index t (0 : Fin 2) = 0 ∧ win0_4.index t (1 : Fin 2) = 0 :=
  (by decide +kernel : ∀ t : Fin grid0.N, win0_4.index t (0 : Fin 2) = 0 ∧ win0_4.index t (1 : Fin 2) = 0)
theorem index5 : ∀ t : Fin cfg0.N, win0_5.index t (0 : Fin 2) = 0 ∧ win0_5.index t (1 : Fin 2) = t.val :=
  (by decide +kernel : ∀ t : Fin grid0.N, win0_5.index t (0 : Fin 2) = 0 ∧ win0_5.index t (1 : Fin 2) = t.val)
theorem index6 : ∀ t : Fin cfg0.N, win0_6.index t (0 : Fin 2) = 0 ∧ win0_6.index t (1 : Fin 2) = t.val :=
  (by decide +kernel : ∀ t : Fin grid0.N, win0_6.index t (0 : Fin 2) = 0 ∧ win0_6.index t (1 : Fin 2) = t.val)

/-- The columns of a result block that are written back are as many as the rows of the activation block that are
    fetched (both are what is left of the 20000 after 2048·t); the other axis is never cut. -/
theorem xsize05 : ∀ t : Fin cfg0.N, win0_5.xsize (grid0.coords t) (1 : Fin 2) = win0_0.xsize (grid0.coords t) (0 : Fin 2)
    ∧ win0_6.xsize (grid0.coords t) (1 : Fin 2) = win0_0.xsize (grid0.coords t) (0 : Fin 2)
    ∧ win0_0.xsize (grid0.coords t) (1 : Fin 2) = 1024 :=
  (by decide +kernel : ∀ t : Fin grid0.N, win0_5.xsize (grid0.coords t) (1 : Fin 2) = win0_0.xsize (grid0.coords t) (0 : Fin 2)
    ∧ win0_6.xsize (grid0.coords t) (1 : Fin 2) = win0_0.xsize (grid0.coords t) (0 : Fin 2)
    ∧ win0_0.xsize (grid0.coords t) (1 : Fin 2) = 1024)

/-! ## One entry of what the body stores -/

theorem hz : (![0, 0] : Fin 2 → Nat) = fun _ => 0 := funext fun a => by fin_cases a <;> rfl

/-- Entry (cc, j) of the class head's buffer, when row `j` of the activation buffer is row `n` of the activations:
    entry (n, cc) of the head. The other rows of the buffer do not enter. -/
theorem headC_entry (X : S2048x1024.Idx → EReal) (wc : S81x1024.Idx → EReal) (bcl : S81x1.Idx → EReal)
    (x : S20000x1024.Idx → EReal) (b : Fin 81 → EReal) (cc : Fin 81) (j : Fin 2048) (n : Fin 20000)
    (hX : ∀ k : Fin 1024, X (ix2 j k) = x (ix2 n k)) (hb : bcl (ix2 cc 0) = b cc) :
    headC (F := Ideal) X wc bcl (ix2 cc j) = Cert.Heads.headAt x wc b n cc := by
  unfold headC
  rw [View.canon_unit_zero hz]
  simp only [View.ld_unit_zero (S := S2048x1024) hz, View.ld_unit_zero (S := S81x1024) hz, View.ld_unit_zero (S := S81x1) hz]
  rw [payC_apply]
  unfold Cert.Heads.headAt
  rw [hb]
  exact congrArg (· + b cc) (Finset.sum_congr rfl fun k _ => by rw [hX k])

theorem headB_entry (X : S2048x1024.Idx → EReal) (wb : S320x1024.Idx → EReal) (bbl : S320x1.Idx → EReal)
    (x : S20000x1024.Idx → EReal) (b : Fin 320 → EReal) (cc : Fin 320) (j : Fin 2048) (n : Fin 20000)
    (hX : ∀ k : Fin 1024, X (ix2 j k) = x (ix2 n k)) (hb : bbl (ix2 cc 0) = b cc) :
    headB (F := Ideal) X wb bbl (ix2 cc j) = Cert.Heads.headAt x wb b n cc := by
  unfold headB
  rw [View.canon_unit_zero hz]
  simp only [View.ld_unit_zero (S := S2048x1024) hz, View.ld_unit_zero (S := S320x1024) hz, View.ld_unit_zero (S := S320x1) hz]
  rw [payB_apply]
  unfold Cert.Heads.headAt
  rw [hb]
  exact congrArg (· + b cc) (Finset.sum_congr rfl fun k _ => by rw [hX k])

/-! ## The blocks of the inputs, read at an index -/

/-- The activation block at point `t`, at local row `y 0` and column `y 1`: the activations at row 2048·t + y 0. -/
theorem xblock_apply (c : Dev nD) (t : Fin cfg0.N) (y : (win0_0.xblock (grid0.coords t)).Idx) (n : Fin 20000) (k : Fin 1024)
    (hn : n.val = t.val * 2048 + (y 0).val) (hk : k.val = (y 1).val) :
    iblk m c 0 t y = (V m c main_arg0 : S20000x1024.Idx → EReal) (ix2 n k) := by
  show (V m c main_arg0 : S20000x1024.Idx → EReal) ((win0_0.blk t).view.emb y) = _
  refine congrArg _ (funext fun a => Fin.ext ?_)
  match a with
  | ⟨0, _⟩ =>
    show win0_0.index t 0 * 2048 + 1 * (y 0).val = n.val
    rw [(index0 t).1, hn]; omega
  | ⟨1, _⟩ =>
    show win0_0.index t 1 * 1024 + 1 * (y 1).val = k.val
    rw [(index0 t).2, hk]; omega

/-- The weights' and the bias columns' blocks are their whole arrays at every point. -/
theorem wcblock_eq (c : Dev nD) (t : Fin cfg0.N) : iblk m c 1 t = (V m c main_arg1 : S81x1024.Idx → EReal) := by
  funext i
  show (V m c main_arg1 : S81x1024.Idx → EReal) ((win0_1.blk t).view.emb i) = _
  refine congrArg _ (funext fun a => Fin.ext ?_)
  match a with
  | ⟨0, _⟩ => show win0_1.index t 0 * 81 + 1 * (i 0).val = (i 0).val; rw [(index1 t).1]; omega
  | ⟨1, _⟩ => show win0_1.index t 1 * 1024 + 1 * (i 1).val = (i 1).val; rw [(index1 t).2]; omega
theorem bcblock_eq (c : Dev nD) (t : Fin cfg0.N) : iblk m c 2 t = (V m c main_v0 : S81x1.Idx → EReal) := by
  funext i
  show (V m c main_v0 : S81x1.Idx → EReal) ((win0_2.blk t).view.emb i) = _
  refine congrArg _ (funext fun a => Fin.ext ?_)
  match a with
  | ⟨0, _⟩ => show win0_2.index t 0 * 81 + 1 * (i 0).val = (i 0).val; rw [(index2 t).1]; omega
  | ⟨1, _⟩ => show win0_2.index t 1 * 1 + 1 * (i 1).val = (i 1).val; rw [(index2 t).2]; omega
theorem wbblock_eq (c : Dev nD) (t : Fin cfg0.N) : iblk m c 3 t = (V m c main_arg3 : S320x1024.Idx → EReal) := by
  funext i
  show (V m c main_arg3 : S320x1024.Idx → EReal) ((win0_3.blk t).view.emb i) = _
  refine congrArg _ (funext fun a => Fin.ext ?_)
  match a with
  | ⟨0, _⟩ => show win0_3.index t 0 * 320 + 1 * (i 0).val = (i 0).val; rw [(index3 t).1]; omega
  | ⟨1, _⟩ => show win0_3.index t 1 * 1024 + 1 * (i 1).val = (i 1).val; rw [(index3 t).2]; omega
theorem bbblock_eq (c : Dev nD) (t : Fin cfg0.N) : iblk m c 4 t = (V m c main_v1 : S320x1.Idx → EReal) := by
  funext i
  show (V m c main_v1 : S320x1.Idx → EReal) ((win0_4.blk t).view.emb i) = _
  refine congrArg _ (funext fun a => Fin.ext ?_)
  match a with
  | ⟨0, _⟩ => show win0_4.index t 0 * 320 + 1 * (i 0).val = (i 0).val; rw [(index4 t).1]; omega
  | ⟨1, _⟩ => show win0_4.index t 1 * 1 + 1 * (i 1).val = (i 1).val; rw [(index4 t).2]; omega

/-! ## What is written back at a point is that point's block of the transposed head -/

/-- Whatever fills the unfetched rows of the activation buffer (`d0`), the columns of the class head's buffer that
    are written back at point `t` are block `t` of `scoresT`: column `y 1` of the buffer is computed from row `y 1`
    of the activation buffer, which was fetched — it is row 2048·t + y 1 of the activations — because as many
    columns are written back as rows were fetched. -/
theorem cutC (c : Dev nD) (t : Fin cfg0.N) (d0 : S2048x1024.Idx → EReal) :
    win0_5.cut (grid0.coords t) (headC (F := Ideal) (win0_0.fill (grid0.coords t) d0 (iblk m c 0 t)) (iblk m c 1 t) (iblk m c 2 t))
      = (win0_5.blk t).view.read (Elt Ideal) (scoresT m c) := by
  funext y
  have h0 : (y 0).val < 81 := lt_of_lt_of_le (y 0).isLt (win0_5.xsize_le (grid0.coords t) 0)
  have h1 : (y 1).val < 2048 := lt_of_lt_of_le (y 1).isLt (win0_5.xsize_le (grid0.coords t) 1)
  have h1' : (y 1).val < win0_0.xsize (grid0.coords t) 0 := (xsize05 t).1 ▸ (y 1).isLt
  have e0 : (((win0_5.blk t).view.emb y 0 : S81x20000.Coord 0) : Nat) = win0_5.index t 0 * 81 + 1 * (y 0).val := rfl
  have e1 : (((win0_5.blk t).view.emb y 1 : S81x20000.Coord 1) : Nat) = win0_5.index t 1 * 2048 + 1 * (y 1).val := rfl
  rw [(index5 t).1] at e0; rw [(index5 t).2] at e1
  have hn : t.val * 2048 + (y 1).val < 20000 := by
    have hlt : (((win0_5.blk t).view.emb y 1 : S81x20000.Coord 1) : Nat) < 20000 := ((win0_5.blk t).view.emb y 1).isLt
    omega
  have eL : win0_5.xinj (grid0.coords t) y = ix2 (⟨(y 0).val, h0⟩ : Fin 81) (⟨(y 1).val, h1⟩ : Fin 2048) :=
    funext fun a => Fin.ext (by match a with | ⟨0, _⟩ => rfl | ⟨1, _⟩ => rfl)
  show headC (F := Ideal) _ _ _ (win0_5.xinj (grid0.coords t) y) = scoresT m c ((win0_5.blk t).view.emb y)
  rw [eL]
  refine (headC_entry _ _ _ (V m c main_arg0 : S20000x1024.Idx → EReal) (fun k : Fin 81 => (V m c main_v0 : S81x1.Idx → EReal) (ix2 k 0))
    ⟨(y 0).val, h0⟩ ⟨(y 1).val, h1⟩ ⟨t.val * 2048 + (y 1).val, hn⟩ (fun k => ?_) ?_).trans ?_
  · let y' : (win0_0.xblock (grid0.coords t)).Idx := fun a => match a with
      | ⟨0, _⟩ => ⟨(y 1).val, h1'⟩
      | ⟨1, _⟩ => ⟨k.val, (show k.val < win0_0.xsize (grid0.coords t) (1 : Fin 2) by rw [(xsize05 t).2.2]; exact k.isLt)⟩
    have e : ix2 (⟨(y 1).val, h1⟩ : Fin 2048) k = win0_0.xinj (grid0.coords t) y' :=
      funext fun a => Fin.ext (by match a with | ⟨0, _⟩ => rfl | ⟨1, _⟩ => rfl)
    rw [e, win0_0.fill_xinj]
    exact xblock_apply m c t y' _ k rfl rfl
  · rw [bcblock_eq]
  · rw [wcblock_eq]
    unfold scoresT Cert.Heads.headT
    refine congrArg₂ (Cert.Heads.headAt _ _ _) (Fin.ext ?_) (Fin.ext ?_)
    · show t.val * 2048 + (y 1).val = ((win0_5.blk t).view.emb y 1 : Nat); omega
    · show (y 0).val = ((win0_5.blk t).view.emb y 0 : Nat); omega

theorem cutB (c : Dev nD) (t : Fin cfg0.N) (d0 : S2048x1024.Idx → EReal) :
    win0_6.cut (grid0.coords t) (headB (F := Ideal) (win0_0.fill (grid0.coords t) d0 (iblk m c 0 t)) (iblk m c 3 t) (iblk m c 4 t))
      = (win0_6.blk t).view.read (Elt Ideal) (deltasT m c) := by
  funext y
  have h0 : (y 0).val < 320 := lt_of_lt_of_le (y 0).isLt (win0_6.xsize_le (grid0.coords t) 0)
  have h1 : (y 1).val < 2048 := lt_of_lt_of_le (y 1).isLt (win0_6.xsize_le (grid0.coords t) 1)
  have h1' : (y 1).val < win0_0.xsize (grid0.coords t) 0 := (xsize05 t).2.1 ▸ (y 1).isLt
  have e0 : (((win0_6.blk t).view.emb y 0 : S320x20000.Coord 0) : Nat) = win0_6.index t 0 * 320 + 1 * (y 0).val := rfl
  have e1 : (((win0_6.blk t).view.emb y 1 : S320x20000.Coord 1) : Nat) = win0_6.index t 1 * 2048 + 1 * (y 1).val := rfl
  rw [(index6 t).1] at e0; rw [(index6 t).2] at e1
  have hn : t.val * 2048 + (y 1).val < 20000 := by
    have hlt : (((win0_6.blk t).view.emb y 1 : S320x20000.Coord 1) : Nat) < 20000 := ((win0_6.blk t).view.emb y 1).isLt
    omega
  have eL : win0_6.xinj (grid0.coords t) y = ix2 (⟨(y 0).val, h0⟩ : Fin 320) (⟨(y 1).val, h1⟩ : Fin 2048) :=
    funext fun a => Fin.ext (by match a with | ⟨0, _⟩ => rfl | ⟨1, _⟩ => rfl)
  show headB (F := Ideal) _ _ _ (win0_6.xinj (grid0.coords t) y) = deltasT m c ((win0_6.blk t).view.emb y)
  rw [eL]
  refine (headB_entry _ _ _ (V m c main_arg0 : S20000x1024.Idx → EReal) (fun k : Fin 320 => (V m c main_v1 : S320x1.Idx → EReal) (ix2 k 0))
    ⟨(y 0).val, h0⟩ ⟨(y 1).val, h1⟩ ⟨t.val * 2048 + (y 1).val, hn⟩ (fun k => ?_) ?_).trans ?_
  · let y' : (win0_0.xblock (grid0.coords t)).Idx := fun a => match a with
      | ⟨0, _⟩ => ⟨(y 1).val, h1'⟩
      | ⟨1, _⟩ => ⟨k.val, (show k.val < win0_0.xsize (grid0.coords t) (1 : Fin 2) by rw [(xsize05 t).2.2]; exact k.isLt)⟩
    have e : ix2 (⟨(y 1).val, h1⟩ : Fin 2048) k = win0_0.xinj (grid0.coords t) y' :=
      funext fun a => Fin.ext (by match a with | ⟨0, _⟩ => rfl | ⟨1, _⟩ => rfl)
    rw [e, win0_0.fill_xinj]
    exact xblock_apply m c t y' _ k rfl rfl
  · rw [bbblock_eq]
  · rw [wbblock_eq]
    unfold deltasT Cert.Heads.headT
    refine congrArg₂ (Cert.Heads.headAt _ _ _) (Fin.ext ?_) (Fin.ext ?_)
    · show t.val * 2048 + (y 1).val = ((win0_6.blk t).view.emb y 1 : Nat); omega
    · show (y 0).val = ((win0_6.blk t).view.emb y 0 : Nat); omega

/-! ## The body at a point -/

/-- What the body is called with at point `t`; -/
def bodyPre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d))
    ∗ (∃ d, owns (c : Thread nD τ) (st0_3 t) fullShare ((dats m 0 c).before 3 t d))
    ∗ (∃ d, owns (c : Thread nD τ) (st0_4 t) fullShare ((dats m 0 c).before 4 t d))
    ∗ (∃ d, owns (c : Thread nD τ) (st0_5 t) fullShare ((dats m 0 c).before 5 t d))
    ∗ (∃ d, owns (c : Thread nD τ) (st0_6 t) fullShare ((dats m 0 c).before 6 t d)))

/-- and what it returns: the three windows whose blocks overhang their arrays stated on the part their transfers
    move, the others whole. -/
def bodyPost (c : Dev nD) (t : Fin cfg0.N) : sProp 𝕄 :=
  iprop((dats m 0 c).Φ t.succ ∗ (dats m 0 c).owesAt () t.succ
    ∗ (∃ d, owns (c : Thread nD τ) (st0_0 t) fullShare (win0_0.fill (grid0.coords t) d (win0_0.cut (grid0.coords t) ((dats m 0 c).after 0 t))))
    ∗ owns (c : Thread nD τ) (st0_1 t) fullShare ((dats m 0 c).after 1 t)
    ∗ owns (c : Thread nD τ) (st0_2 t) fullShare ((dats m 0 c).after 2 t)
    ∗ owns (c : Thread nD τ) (st0_3 t) fullShare ((dats m 0 c).after 3 t)
    ∗ owns (c : Thread nD τ) (st0_4 t) fullShare ((dats m 0 c).after 4 t)
    ∗ (∃ d, owns (c : Thread nD τ) (st0_5 t) fullShare (win0_5.fill (grid0.coords t) d (win0_5.cut (grid0.coords t) ((dats m 0 c).after 5 t))))
    ∗ (∃ d, owns (c : Thread nD τ) (st0_6 t) fullShare (win0_6.fill (grid0.coords t) d (win0_6.cut (grid0.coords t) ((dats m 0 c).after 6 t)))))

/-- The body at any point: the inputs are handed back as found; each result buffer ends at the body's stored value,
    whose written-back columns are the point's block of the transposed head (`cutC`, `cutB`) — so the buffer is that
    block filled out, past the written-back columns, with its own trailing columns. -/
theorem sound_body (c : Dev nD) (t : Fin cfg0.N) :
    bodyPre m c t ⊢ wp frame (wpE (defs₀ (F := Ideal)) Variants.none c none) Set.univ (bodyAt0 t) (fun _ => bodyPost m c t) := by
  unfold bodyPre bodyPost bodyAt0
  simp only [before0_0, before0_1, before0_2, before0_3, before0_4, before0_5, before0_6]
  rw [show (dats m 0 c).Φ t.succ = (dats m 0 c).Φ t.castSucc from rfl,
    show (dats m 0 c).owesAt () t.succ = (dats m 0 c).owesAt () t.castSucc from rfl,
    after0_0, after0_1, after0_2, after0_3, after0_4, after0_5, after0_6]
  iintro ⟨HΦ, Ho, ⟨%d0, H0⟩, ⟨%d1, H1⟩, ⟨%d2, H2⟩, ⟨%d3, H3⟩, ⟨%d4, H4⟩, ⟨%d5, H5⟩, ⟨%d6, H6⟩⟩
  iapply (sound_kernel (F := Ideal) c Set.univ (grid0.coords t) _ _ _ _ _ _ _ _ _ _ _ _ _ _
    (win0_0.fill (grid0.coords t) d0 (iblk m c 0 t)) (iblk m c 1 t) (iblk m c 2 t) (iblk m c 3 t) (iblk m c 4 t) _)
  isplitl [H0]; · iexact H0
  isplitl [H1]; · iexact H1
  isplitl [H2]; · iexact H2
  isplitl [H3]; · iexact H3
  isplitl [H4]; · iexact H4
  isplitl [H5]; · iexists _; iexact H5
  isplitl [H6]; · iexists _; iexact H6
  iintro ⟨H0, H1, H2, H3, H4, H5, H6⟩
  isplitl [HΦ]; · iexact HΦ
  isplitl [Ho]; · iexact Ho
  isplitl [H0]
  · iexists d0; rw [Window.cut_fill]; iexact H0
  isplitl [H1]; · iexact H1
  isplitl [H2]; · iexact H2
  isplitl [H3]; · iexact H3
  isplitl [H4]; · iexact H4
  isplitl [H5]
  · iexists (headC (F := Ideal) (win0_0.fill (grid0.coords t) d0 (iblk m c 0 t)) (iblk m c 1 t) (iblk m c 2 t))
    rw [Window.cut_fill, ← cutC m c t d0, Window.fill_cut]; iexact H5
  iexists (headB (F := Ideal) (win0_0.fill (grid0.coords t) d0 (iblk m c 0 t)) (iblk m c 3 t) (iblk m c 4 t))
  rw [Window.cut_fill, ← cutB m c t d0, Window.fill_cut]; iexact H6

/-- The library's body obligation, at every point. -/
theorem body_obligation (c : Dev nD) :
    BodyObligationLoose (dats m 0 c) (defs₀ (F := Ideal)) Variants.none () Set.univ := fun t => by
  rw [bigSep_W0, bigSep_W0]
  exact sound_body m c t

/-! ## The run and the frame -/

set_option backward.isDefEq.respectTransparency.types false in
/-- At the compiled mesh, from any memory with zero counters: every weakly fair execution of @main terminates, with
    every array of the call at what the library computes from the proof data and every other buffer as the lines
    after the call leave it. -/
theorem run_main : θ_run defs (onTc (τ := τ) (main (F := Ideal))) (s₀ m ρ)
    (Pipeline.FramePost cfgs (dats m) 0 (Pipeline.afterTail₀ cfgs (dats m) 0 (V0 m) [hostOps1])) :=
  Pipeline.θ_run_frame_around cfgs (dats m) (0 : Fin 1) launch0 defs₀ Variants.none m ρ main
    (hbody := fun c => body_obligation m c) (hshare := fun c => (dats m 0 c).share_full fun _ => rfl)
    (howed := fun _ _ => rfl) (V₀ := V0 m) (opss := [hostOps1]) (hsub := sfx_sub) (hfresh := sfx_fresh) (hkeep := sfx_keeps)
    (hmain := hmain m Variants.none) (hA := A_eq m) (hΦ := fun _ _ => rfl)

/-- THE FRAME of the idealized kernel: its five arguments end as they were launched. -/
theorem frame : θ_run defs (onTc (τ := τ) (main (F := Ideal))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)) :=
  frame_of m ρ (dats m) (A_eq m) (run_main m ρ)

end Cert.KernelIdeal.Run

end
-- ==== Proof.IdealValue.lean ====
/-
  The idealized kernel's two results, as functions of its arguments.

  Every point writes back its block of the transposed heads (IdealRun), and the ten blocks' parts inside the arrays
  are the column ranges 2048·t … 2048·t + 2047 (the last one stopping at 19999): together every column. So after
  the call the two transposed result arrays ARE `scoresT` and `deltasT`. The two lines after the call transpose
  them, and the two lines before it only lay each bias out as a column; reading those through gives the program's
  results as the heads `Cert.Heads.head` of the launch contents of the five arguments.
-/
import proofs.«104777_g27419071218216_cont_9to1_1760_8_alg».proof.Proof.IdealRun
import Idealize.ShloMosaic.Lib.StableHlo.Run

set_option maxRecDepth 16384

noncomputable section

namespace Cert.KernelIdeal.Result

open Cert.KernelIdeal Cert.KernelIdeal.Gen Cert.KernelIdeal.Run
open Idealize.ShloMosaic Idealize.ShloMosaic.TcCoe Idealize.ShloMosaic.Tactic Idealize.ShloMosaic.ValueIdx
open Idealize.SL Idealize.SL.Sem Idealize.ShloMosaic.StableHlo
open Idealize.ShloMosaic.Pipeline (Dat Cfg Window)

variable (m : (ℓ : Loc nD τ sig) → Buf (Elt Ideal) ℓ) (ρ : Dev nD → PrngReg)

/-! ## What each point writes back -/

theorem flushedC (c : Dev nD) (t : Fin cfg0.N) :
    (dats m 0 c).flushed 5 t = (win0_5.blk t).view.read (Elt Ideal) (scoresT m c) := by
  show win0_5.cut (grid0.coords t) ((dats m 0 c).after 5 t) = _
  rw [after0_5, Window.cut_fill]
theorem flushedB (c : Dev nD) (t : Fin cfg0.N) :
    (dats m 0 c).flushed 6 t = (win0_6.blk t).view.read (Elt Ideal) (deltasT m c) := by
  show win0_6.cut (grid0.coords t) ((dats m 0 c).after 6 t) = _
  rw [after0_6, Window.cut_fill]

/-! ## The written-back parts cover the arrays -/

/-- Point `t` writes back all rows, and min(2048, 20000 − 2048·t) columns. -/
theorem xsizeOut : ∀ t : Fin cfg0.N, win0_5.xsize (grid0.coords t) (0 : Fin 2) = 81 ∧ win0_6.xsize (grid0.coords t) (0 : Fin 2) = 320
    ∧ win0_5.xsize (grid0.coords t) (1 : Fin 2) = min 2048 (20000 - t.val * 2048)
    ∧ win0_6.xsize (grid0.coords t) (1 : Fin 2) = min 2048 (20000 - t.val * 2048) :=
  (by decide +kernel : ∀ t : Fin grid0.N, win0_5.xsize (grid0.coords t) (0 : Fin 2) = 81 ∧ win0_6.xsize (grid0.coords t) (0 : Fin 2) = 320
    ∧ win0_5.xsize (grid0.coords t) (1 : Fin 2) = min 2048 (20000 - t.val * 2048)
    ∧ win0_6.xsize (grid0.coords t) (1 : Fin 2) = min 2048 (20000 - t.val * 2048))

theorem mem_blkC (t : Fin cfg0.N) (i : S81x20000.Idx) :
    i ∈ (win0_5.blk t).view.set ↔ t.val * 2048 ≤ (i 1 : Nat) ∧ (i 1 : Nat) < t.val * 2048 + min 2048 (20000 - t.val * 2048) := by
  show i ∈ ((View.whole main_v2_0).slice (win0_5.rect t)).set ↔ _
  rw [View.set_slice_whole, Rect.mem_set_unit]
  have h0 : (i 0 : Nat) < 81 := (i 0).isLt
  refine ⟨fun h => ?_, fun h a => ?_⟩
  · have := h 1
    change win0_5.index t 1 * 2048 ≤ (i 1 : Nat) ∧ (i 1 : Nat) < win0_5.index t 1 * 2048 + win0_5.xsize (grid0.coords t) 1 at this
    rw [(index5 t).2, (xsizeOut t).2.2.1] at this
    exact this
  · match a with
    | ⟨0, _⟩ =>
      change win0_5.index t 0 * 81 ≤ (i 0 : Nat) ∧ (i 0 : Nat) < win0_5.index t 0 * 81 + win0_5.xsize (grid0.coords t) 0
      rw [(index5 t).1, (xsizeOut t).1]; omega
    | ⟨1, _⟩ =>
      change win0_5.index t 1 * 2048 ≤ (i 1 : Nat) ∧ (i 1 : Nat) < win0_5.index t 1 * 2048 + win0_5.xsize (grid0.coords t) 1
      rw [(index5 t).2, (xsizeOut t).2.2.1]; exact h

theorem mem_blkB (t : Fin cfg0.N) (i : S320x20000.Idx) :
    i ∈ (win0_6.blk t).view.set ↔ t.val * 2048 ≤ (i 1 : Nat) ∧ (i 1 : Nat) < t.val * 2048 + min 2048 (20000 - t.val * 2048) := by
  show i ∈ ((View.whole main_v2_1).slice (win0_6.rect t)).set ↔ _
  rw [View.set_slice_whole, Rect.mem_set_unit]
  have h0 : (i 0 : Nat) < 320 := (i 0).isLt
  refine ⟨fun h => ?_, fun h a => ?_⟩
  · have := h 1
    change win0_6.index t 1 * 2048 ≤ (i 1 : Nat) ∧ (i 1 : Nat) < win0_6.index t 1 * 2048 + win0_6.xsize (grid0.coords t) 1 at this
    rw [(index6 t).2, (xsizeOut t).2.2.2] at this
    exact this
  · match a with
    | ⟨0, _⟩ =>
      change win0_6.index t 0 * 320 ≤ (i 0 : Nat) ∧ (i 0 : Nat) < win0_6.index t 0 * 320 + win0_6.xsize (grid0.coords t) 0
      rw [(index6 t).1, (xsizeOut t).2.1]; omega
    | ⟨1, _⟩ =>
      change win0_6.index t 1 * 2048 ≤ (i 1 : Nat) ∧ (i 1 : Nat) < win0_6.index t 1 * 2048 + win0_6.xsize (grid0.coords t) 1
      rw [(index6 t).2, (xsizeOut t).2.2.2]; exact h

/-- Column `n` lies in the part point `n / 2048` writes back. -/
theorem coverC (i : S81x20000.Idx) : ∃ t : Fin cfg0.N, (cfg0.win 5).flush t = true ∧ i ∈ ((cfg0.win 5).blk t).view.set := by
  have h1 : (i 1 : Nat) < 20000 := (i 1).isLt
  refine ⟨⟨(i 1 : Nat) / 2048, by rw [show cfg0.N = 10 from N_0]; omega⟩, flush0_5 _, ?_⟩
  rw [mem_blkC]
  show (i 1 : Nat) / 2048 * 2048 ≤ (i 1 : Nat) ∧ (i 1 : Nat) < (i 1 : Nat) / 2048 * 2048 + min 2048 (20000 - (i 1 : Nat) / 2048 * 2048)
  omega
theorem coverB (i : S320x20000.Idx) : ∃ t : Fin cfg0.N, (cfg0.win 6).flush t = true ∧ i ∈ ((cfg0.win 6).blk t).view.set := by
  have h1 : (i 1 : Nat) < 20000 := (i 1).isLt
  refine ⟨⟨(i 1 : Nat) / 2048, by rw [show cfg0.N = 10 from N_0]; omega⟩, flush0_6 _, ?_⟩
  rw [mem_blkB]
  show (i 1 : Nat) / 2048 * 2048 ≤ (i 1 : Nat) ∧ (i 1 : Nat) < (i 1 : Nat) / 2048 * 2048 + min 2048 (20000 - (i 1 : Nat) / 2048 * 2048)
  omega

/-! ## The two transposed results after the call -/

theorem finalC (c : Dev nD) : (dats m 0 c).arrAt 5 cfg0.N = scoresT m c :=
  (dats m 0 c).arrAt_eq_of_cover 5 (scoresT m c) (fun t _ => flushedC m c t) coverC
theorem finalB (c : Dev nD) : (dats m 0 c).arrAt 6 cfg0.N = deltasT m c :=
  (dats m 0 c).arrAt_eq_of_cover 6 (deltasT m c) (fun t _ => flushedB m c t) coverB

/-! ## The lines before the call: each bias laid out as a column -/

theorem V_bc (c : Dev nD) : (V m c main_v0 : S81x1.Idx → EReal)
    = shapeCast S81x1 (m ((c : Thread nD τ).loc main_arg2) : S81.Idx → EReal) Facts₀.shapeCasts_S81_S81x1 := by
  show StableHlo.after hostOps0 (fun b => m (c, b)) (Proc.devRef .tc main_v0) = _
  after_results
  rfl
theorem V_bb (c : Dev nD) : (V m c main_v1 : S320x1.Idx → EReal)
    = shapeCast S320x1 (m ((c : Thread nD τ).loc main_arg4) : S320.Idx → EReal) Facts₀.shapeCasts_S320_S320x1 := by
  show StableHlo.after hostOps0 (fun b => m (c, b)) (Proc.devRef .tc main_v1) = _
  after_results
  rfl

/-- Entry (k, 0) of the bias column is entry k of the bias. -/
theorem bc_apply (c : Dev nD) (k : Fin 81) :
    (V m c main_v0 : S81x1.Idx → EReal) (ix2 k 0) = (m ((c : Thread nD τ).loc main_arg2) : S81.Idx → EReal) (ix1 k) := by
  rw [V_bc]
  exact shapeCast_apply _ _ (ix2 k 0) (ix1 k) (by
    rw [Shape.rowMajor_val_one, Shape.rowMajor_val_two]; show k.val = k.val * 1 + 0; omega)
theorem bb_apply (c : Dev nD) (k : Fin 320) :
    (V m c main_v1 : S320x1.Idx → EReal) (ix2 k 0) = (m ((c : Thread nD τ).loc main_arg4) : S320.Idx → EReal) (ix1 k) := by
  rw [V_bb]
  exact shapeCast_apply _ _ (ix2 k 0) (ix1 k) (by
    rw [Shape.rowMajor_val_one, Shape.rowMajor_val_two]; show k.val = k.val * 1 + 0; omega)

/-! ## The lines after the call: the two transposes -/

theorem tail_scores (c : Dev nD) :
    Pipeline.afterTail₀ cfgs (dats m) 0 (V0 m) [hostOps1] c main_v3
      = transpose S20000x81 [1, 0] (scoresT m c) Facts₀.transposes_S81x20000_S20000x81_1_0 := by
  unfold Pipeline.afterTail₀
  show StableHlo.after hostOps1 _ (Proc.devRef .tc main_v3) = _
  after_results
  rw [show Pipeline.withArrays (cfgs 0).spec c (V0 m c) (fun w => (dats m 0 c).arrAt w (cfgs 0).N) (Proc.devRef .tc main_v2_0)
      = scoresT m c from (Pipeline.withArrays_arr spec0 launch0.win.arr_inj c _ _ 5).trans (finalC m c)]

theorem tail_deltas (c : Dev nD) :
    Pipeline.afterTail₀ cfgs (dats m) 0 (V0 m) [hostOps1] c main_v4
      = transpose S20000x320 [1, 0] (deltasT m c) Facts₀.transposes_S320x20000_S20000x320_1_0 := by
  unfold Pipeline.afterTail₀
  show StableHlo.after hostOps1 _ (Proc.devRef .tc main_v4) = _
  after_results
  rw [show Pipeline.withArrays (cfgs 0).spec c (V0 m c) (fun w => (dats m 0 c).arrAt w (cfgs 0).N) (Proc.devRef .tc main_v2_1)
      = deltasT m c from (Pipeline.withArrays_arr spec0 launch0.win.arr_inj c _ _ 6).trans (finalB m c)]

/-! ## The program's results -/

/-- The transposed scores, transposed back, are the class head of the launch contents. -/
theorem scores_result (c : Dev nD) :
    transpose S20000x81 [1, 0] (scoresT m c) Facts₀.transposes_S81x20000_S20000x81_1_0
      = Cert.Heads.head (N := 20000) (C := 81) (K := 1024) (m ((c : Thread nD τ).loc main_arg0)) (m ((c : Thread nD τ).loc main_arg1))
          (fun k : Fin 81 => (m ((c : Thread nD τ).loc main_arg2) : S81.Idx → EReal) (ix1 k)) := by
  funext i
  refine (transpose_apply [1, 0] (scoresT m c) Facts₀.transposes_S81x20000_S20000x81_1_0 i
    (ix2 (⟨(i 1).val, (i 1).isLt⟩ : Fin 81) (⟨(i 0).val, (i 0).isLt⟩ : Fin 20000)) (fun b => match b with
      | ⟨0, _⟩ => rfl
      | ⟨1, _⟩ => rfl)).trans ?_
  unfold scoresT Cert.Heads.headT Cert.Heads.head
  rw [V_main_arg0, V_main_arg1]
  exact congrArg (fun b : Fin 81 → EReal => Cert.Heads.headAt (N := 20000) (C := 81) (K := 1024)
      (m ((c : Thread nD τ).loc main_arg0)) (m ((c : Thread nD τ).loc main_arg1)) b ⟨(i 0).val, (i 0).isLt⟩ ⟨(i 1).val, (i 1).isLt⟩)
    (funext fun k => bc_apply m c k)

theorem deltas_result (c : Dev nD) :
    transpose S20000x320 [1, 0] (deltasT m c) Facts₀.transposes_S320x20000_S20000x320_1_0
      = Cert.Heads.head (N := 20000) (C := 320) (K := 1024) (m ((c : Thread nD τ).loc main_arg0)) (m ((c : Thread nD τ).loc main_arg3))
          (fun k : Fin 320 => (m ((c : Thread nD τ).loc main_arg4) : S320.Idx → EReal) (ix1 k)) := by
  funext i
  refine (transpose_apply [1, 0] (deltasT m c) Facts₀.transposes_S320x20000_S20000x320_1_0 i
    (ix2 (⟨(i 1).val, (i 1).isLt⟩ : Fin 320) (⟨(i 0).val, (i 0).isLt⟩ : Fin 20000)) (fun b => match b with
      | ⟨0, _⟩ => rfl
      | ⟨1, _⟩ => rfl)).trans ?_
  unfold deltasT Cert.Heads.headT Cert.Heads.head
  rw [V_main_arg0, V_main_arg3]
  exact congrArg (fun b : Fin 320 → EReal => Cert.Heads.headAt (N := 20000) (C := 320) (K := 1024)
      (m ((c : Thread nD τ).loc main_arg0)) (m ((c : Thread nD τ).loc main_arg3)) b ⟨(i 0).val, (i 0).isLt⟩ ⟨(i 1).val, (i 1).isLt⟩)
    (funext fun k => bb_apply m c k)

/-- THE VALUE of the idealized kernel: every weakly fair execution terminates with the two results at the two heads
    of the launch contents of the arguments, and the arguments unchanged. -/
theorem run : θ_run defs (onTc (τ := τ) (main (F := Ideal))) ⟨m, fun _ => 0, ρ⟩ (fun r => ∀ c : Dev nD,
      r.2.mem ((c.tc : Thread nD τ).loc main_v3)
        = Cert.Heads.head (N := 20000) (C := 81) (K := 1024) (m ((c : Thread nD τ).loc main_arg0)) (m ((c : Thread nD τ).loc main_arg1))
            (fun k : Fin 81 => (m ((c : Thread nD τ).loc main_arg2) : S81.Idx → EReal) (ix1 k))
      ∧ r.2.mem ((c.tc : Thread nD τ).loc main_v4)
        = Cert.Heads.head (N := 20000) (C := 320) (K := 1024) (m ((c : Thread nD τ).loc main_arg0)) (m ((c : Thread nD τ).loc main_arg3))
            (fun k : Fin 320 => (m ((c : Thread nD τ).loc main_arg4) : S320.Idx → EReal) (ix1 k))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)) :=
  (θ_run defs _ _).mono (fun _ h c =>
    ⟨((h c).2 main_v3 (Pipeline.mem_restRefs_of main_v3 (by decide) (by decide))).trans ((tail_scores m c).trans (scores_result m c)),
     ((h c).2 main_v4 (Pipeline.mem_restRefs_of main_v4 (by decide) (by decide))).trans ((tail_deltas m c).trans (deltas_result m c)),
     ((h c).1 0).trans (((dats m 0 c).arrAt_in 0 rfl _).trans ((A_eq m c 0).trans (V_main_arg0 m c))),
     ((h c).1 1).trans (((dats m 0 c).arrAt_in 1 rfl _).trans ((A_eq m c 1).trans (V_main_arg1 m c))),
     ((h c).2 main_arg2 (Pipeline.mem_restRefs_of main_arg2 (by decide) (by decide))).trans (W_main_arg2 m (dats m) c),
     ((h c).1 3).trans (((dats m 0 c).arrAt_in 3 rfl _).trans ((A_eq m c 3).trans (V_main_arg3 m c))),
     ((h c).2 main_arg4 (Pipeline.mem_restRefs_of main_arg4 (by decide) (by decide))).trans (W_main_arg4 m (dats m) c)⟩)
    (run_main m ρ)

end Cert.KernelIdeal.Result

end
-- ==== Proof.RefValue.lean ====
/-
  The reference's two results are the two heads.

  The reference transposes each weight matrix, multiplies the activations by it, and adds the bias copied down the
  rows. Read at entry (n, c) that is  Σ_k x[n,k] · W[c,k] + b[c];  the head of the specification has the factors in
  the other order, W[c,k] · x[n,k], and the product of extended reals commutes.
-/
import proofs.«104777_g27419071218216_cont_9to1_1760_8_alg».proof.Proof.Gen.ReferenceIdeal.Read
import proofs.«104777_g27419071218216_cont_9to1_1760_8_alg».proof.Proof.SpecHeads

noncomputable section

namespace Cert.ReferenceIdeal.RefValue

open Cert.ReferenceIdeal Cert.ReferenceIdeal.Gen Cert.ReferenceIdeal.Read
open Idealize.ShloMosaic Idealize.ShloMosaic.TcCoe Idealize.SL.Sem Idealize.ShloMosaic.ValueIdx

/-- The class scores. -/
theorem scores_eq (x0 : (⟨S20000x1024, .f32⟩ : BufTy).Contents (Elt Ideal)) (x1 : (⟨S81x1024, .f32⟩ : BufTy).Contents (Elt Ideal))
    (x2 : (⟨S81, .f32⟩ : BufTy).Contents (Elt Ideal)) :
    val_main_v4 (F := Ideal) x0 x1 x2
      = Cert.Heads.head (N := 20000) (C := 81) (K := 1024) x0 x1 (fun k : Fin 81 => x2 (ix1 k)) := by
  funext i
  rw [val_main_v4_apply]
  show val_main_v1 (F := Ideal) x0 x1 i + val_main_v3 (F := Ideal) x2 i = _
  rw [val_main_v1_apply, val_main_v3_apply, val_main_v2_apply]
  unfold Cert.Heads.head Cert.Heads.headAt
  refine congrArg₂ (· + ·) (Finset.sum_congr rfl fun k _ => ?_) (congrArg x2 (funext fun a => Fin.ext ?_))
  · rw [val_main_v0_apply, mul_comm]
    refine congrArg₂ (· * ·) (congrArg x1 (funext fun a => Fin.ext ?_)) (congrArg x0 (funext fun a => Fin.ext ?_))
    · match a with
      | ⟨0, _⟩ => rfl
      | ⟨1, _⟩ => rfl
    · match a with
      | ⟨0, _⟩ => rfl
      | ⟨1, _⟩ => rfl
  · match a with
    | ⟨0, _⟩ => rfl

/-- The box deltas. -/
theorem deltas_eq (x0 : (⟨S20000x1024, .f32⟩ : BufTy).Contents (Elt Ideal)) (x3 : (⟨S320x1024, .f32⟩ : BufTy).Contents (Elt Ideal))
    (x4 : (⟨S320, .f32⟩ : BufTy).Contents (Elt Ideal)) :
    val_main_v9 (F := Ideal) x0 x3 x4
      = Cert.Heads.head (N := 20000) (C := 320) (K := 1024) x0 x3 (fun k : Fin 320 => x4 (ix1 k)) := by
  funext i
  rw [val_main_v9_apply]
  show val_main_v6 (F := Ideal) x0 x3 i + val_main_v8 (F := Ideal) x4 i = _
  rw [val_main_v6_apply, val_main_v8_apply, val_main_v7_apply]
  unfold Cert.Heads.head Cert.Heads.headAt
  refine congrArg₂ (· + ·) (Finset.sum_congr rfl fun k _ => ?_) (congrArg x4 (funext fun a => Fin.ext ?_))
  · rw [val_main_v5_apply, mul_comm]
    refine congrArg₂ (· * ·) (congrArg x3 (funext fun a => Fin.ext ?_)) (congrArg x0 (funext fun a => Fin.ext ?_))
    · match a with
      | ⟨0, _⟩ => rfl
      | ⟨1, _⟩ => rfl
    · match a with
      | ⟨0, _⟩ => rfl
      | ⟨1, _⟩ => rfl
  · match a with
    | ⟨0, _⟩ => rfl

end Cert.ReferenceIdeal.RefValue

end
-- ==== Proof.lean ====
/-
  The certificate of a fused pair of linear heads against its reference.

  The program computes, for activations `x` [20000, 1024], weights `W_c` [81, 1024], `W_b` [320, 1024] and biases
  `b_c`, `b_b`, the two heads  x · W_cᵀ + b_c  and  x · W_bᵀ + b_b.  The kernel does it in one call over ten blocks of
  2048 rows of `x`, producing the TRANSPOSED heads block of columns by block of columns (each bias first laid out as
  a column), and transposes them back afterwards; the reference does it with two whole matrix products. Over the
  extended reals both are, entry (n, c),  Σ_k W[c,k] · x[n,k] + b[c]  (`Cert.Heads.head`): the kernel by reading what
  each block writes back and that the blocks cover the results, the reference operation by operation, the two
  spellings joined by commutativity of the product alone — so the precondition (finite inputs) is never opened.

  The 20000 rows are not a multiple of 2048: the last block overhangs the array, its staging buffer's last 480 rows
  hold words nothing names, and only the first 1568 columns of the last result blocks are written back. A column of a
  result block depends on the matching row of the activation block only, so nothing unnamed is ever written back
  (Proof/IdealRun.lean). For the kernel as printed, whose matrix product is not stated row by row at the word level,
  the frame is proved saying nothing of the results (Proof/BitsRun.lean).

  The five conjuncts: the three frames; `preserves`, which is `True` (the idealization rewrote no operation); and the
  equality of results at the extended reals.
-/
import proofs.«104777_g27419071218216_cont_9to1_1760_8_alg».proof.Defs
import proofs.«104777_g27419071218216_cont_9to1_1760_8_alg».proof.Proof.Gen.Kernel
import proofs.«104777_g27419071218216_cont_9to1_1760_8_alg».proof.Proof.Gen.KernelIdeal
import proofs.«104777_g27419071218216_cont_9to1_1760_8_alg».proof.Proof.Gen.ReferenceIdeal
import proofs.«104777_g27419071218216_cont_9to1_1760_8_alg».proof.Proof.Gen.ReferenceIdeal.Run
import proofs.«104777_g27419071218216_cont_9to1_1760_8_alg».proof.Proof.Gen.ReferenceIdeal.Read
import proofs.«104777_g27419071218216_cont_9to1_1760_8_alg».proof.Proof.Gen.Pre_finite_inputs
import proofs.«104777_g27419071218216_cont_9to1_1760_8_alg».proof.Proof.BitsRun
import proofs.«104777_g27419071218216_cont_9to1_1760_8_alg».proof.Proof.IdealRun
import proofs.«104777_g27419071218216_cont_9to1_1760_8_alg».proof.Proof.IdealValue
import proofs.«104777_g27419071218216_cont_9to1_1760_8_alg».proof.Proof.RefValue
import Idealize.ShloMosaic.Adequacy
import Idealize.ShloMosaic.Init

noncomputable section

namespace Cert.Proof

open Idealize.ShloMosaic Idealize.ShloMosaic.TcCoe Idealize.SL.Sem

/-- The kernel as printed runs and leaves its arguments unchanged. -/
theorem frame_k : Cert.frame_Kernel := fun m ρ _ => Cert.Kernel.Run.frame (F := Bits) m ρ

/-- So does its idealization. -/
theorem frame_ki : Cert.frame_KernelIdeal := fun m ρ _ => Cert.KernelIdeal.Run.frame m ρ

/-- The reference's frame is its run with the results dropped. -/
theorem frame_ri : Cert.frame_ReferenceIdeal := fun m ρ _ =>
  (θ_run Cert.ReferenceIdeal.defs _ _).mono (fun _ h c => (h c).2.2) (Cert.ReferenceIdeal.Value.run (F := Ideal) m ρ)

/-- The idealization rewrote nothing. -/
theorem preserves : Cert.preserves_Kernel_KernelIdeal := trivial

/-- From memories agreeing on the arguments, both idealized programs end with the two heads of those arguments. -/
theorem algebraic : Cert.algebraic_KernelIdeal_ReferenceIdeal := by
  intro m ρ m' ρ' _ hagree
  refine ⟨_, _, Cert.KernelIdeal.Result.run m ρ, ?_⟩
  refine (θ_run Cert.ReferenceIdeal.defs _ _).mono (fun _ h c => ⟨?_, ?_, (h c).2.2⟩)
    (Cert.ReferenceIdeal.Value.run (F := Ideal) m' ρ')
  · rw [(h c).1, Cert.ReferenceIdeal.Read.val_main_v4_eq, Cert.ReferenceIdeal.RefValue.scores_eq,
      (hagree c).1, (hagree c).2.1, (hagree c).2.2.1]
  · rw [(h c).2.1, Cert.ReferenceIdeal.Read.val_main_v9_eq, Cert.ReferenceIdeal.RefValue.deltas_eq,
      (hagree c).1, (hagree c).2.2.2.1, (hagree c).2.2.2.2]

theorem claim : Cert.Claim :=
  ⟨Cert.Kernel.Gen.facts, Cert.KernelIdeal.Gen.facts, Cert.ReferenceIdeal.Gen.facts, Cert.Pre_finite_inputs.Gen.facts,
    frame_k, frame_ki, frame_ri, preserves, algebraic⟩

end Cert.Proof

end
